-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S384x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x64 .f32 := Host.absf main_arg8
  let main_cst_10 : FVec F S_ .f32 := constant S_ .f32 0x7F800000#32
  let main_v30 : FVec F S384x64 .f32 := broadcastInDim S384x64 ![] bcast_S_S384x64 main_cst_10
  let main_v31 : IVec S384x64 1 := cmpf .olt main_v29 main_v30
  let main_c_11 : IVec S_ 1 := constantI S_ 1 1#1
  let main_v32 : IVec S_ 1 := (fun x v => Host.reduce IntOp.andi x v reducesTo_S384x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128 .f32) (main_arg8 : FVec F S384x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 108
  | .vmem => 51
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S384x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S_, .f32⟩
  | .hbm, ⟨99, _⟩ => ⟨S100000x128, .f32⟩
  | .hbm, ⟨100, _⟩ => ⟨S1600000x1, .i32⟩
  | .hbm, ⟨101, _⟩ => ⟨S100000x128, .f32⟩
  | .hbm, ⟨102, _⟩ => ⟨S100000x128, .f32⟩
  | .hbm, ⟨103, _⟩ => ⟨S128x64, .f32⟩
  | .hbm, ⟨104, _⟩ => ⟨S128x64, .f32⟩
  | .hbm, ⟨105, _⟩ => ⟨S128x64, .f32⟩
  | .hbm, ⟨106, _⟩ => ⟨S1x64, .f32⟩
  | .hbm, ⟨107, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128x64, .f32⟩
  | .local _ .vmem, ⟨46, _⟩ => ⟨S128x64, .f32⟩
  | .local _ .vmem, ⟨47, _⟩ => ⟨S128x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_v13 : Ref sig .tc := ⟨.hbm, 29, rfl⟩
abbrev main_cst_5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_v24 : Ref sig .tc := ⟨.hbm, 44, rfl⟩
abbrev main_v25 : Ref sig .tc := ⟨.hbm, 45, rfl⟩
abbrev main_c_8 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg7_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem7_1 : DmaSem sig := 50

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S384x64_S128x64_0_0 : S384x64.Slices ![0, 0] S128x64
  slices_S384x64_S128x64_128_0 : S384x64.Slices ![128, 0] S128x64
  slices_S384x64_S128x64_256_0 : S384x64.Slices ![256, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v33) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v47_1) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v58_1) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v70) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v74) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x384 : Shape := ⟨2, ![100000, 384]⟩
abbrev S100000x64 : Shape := ⟨2, ![100000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S384x64, .f32⟩
  | 9 => ⟨S64, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x1, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x1, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S100000x128, .f32⟩
  | 103 => ⟨S100000x128, .f32⟩
  | 104 => ⟨S100000x128, .f32⟩
  | 105 => ⟨S100000x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S100000x384, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_12 : Ref sig .tc := ⟨.hbm, 89, rfl⟩
abbrev main_v61 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x128_S100000x384_d1 : Shape.Concatenates [S100000x128, S100000x128, S100000x128] S100000x384 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x384_S384x64_S100000x64_1_0_0_1_n_n_wf : DotDims.WF S100000x384 S384x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf

class Facts : Prop extends Facts₀ where

variable [Facts]
-- ==== Proof.KernelRun.lean ====
/-
  The idealized kernel's run with its result kept.

  The five tiled regions and the host stretches between them run one after another; at every boundary the contents
  of the TensorCore's buffers are a known function of the launch memory (`Gen.W0` … `Gen.W10`: a stretch applies its
  operations, a region replaces its output arrays by what its write-backs leave). The generated frame theorem reads
  only the argument arrays off the final contents. Here the same launch is read at the result array as well:
  every weakly fair execution terminates, nothing faults, the arguments end as launched, and the result array
  `main_v74` ends at `Gen.W10` there.
-/
import proofs.«111396_j42992622633741_2_alg».proof.Proof.Gen.KernelIdeal.Frame

set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main from any memory with zero counters: it terminates without a fault, the result array ends at the
    last boundary's contents, and every argument array ends as launched. -/
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.Aggregate.lean ====
/-
  The aggregation over edges, as one function.

  Every layer first sums, for each node, the rows of a node-by-feature matrix x over the node's in-edges: the rows are
  gathered at the edges' source nodes (a source index below zero is wrapped round by adding the node count, as array
  indexing does) and scatter-added at the edges' destination nodes into an all-zero matrix. Both programs spell this
  with the same host operations, four times each; it is named once here and never opened.
-/
import proofs.«111396_j42992622633741_2_alg».proof.Proof.Gen.ReferenceIdeal.Read

noncomputable section

namespace Cert.Bridge

open Cert.ReferenceIdeal Cert.ReferenceIdeal.Read Idealize.ShloMosaic

/-- Sum over in-edges: gather x's rows at the sources, scatter-add them at the destinations. -/
def agg (src dst : (⟨S1600000, .i32⟩ : BufTy).Contents (Elt Ideal)) (x : FVec Ideal S100000x128 .f32) : FVec Ideal S100000x128 .f32 :=
  Host.scatterAdd (F := Ideal) (φ := .f32) scatter_S100000x128_S1600000x1_S1600000x128_1_0_0_1 (val_main_v25 (F := Ideal)) (val_main_v26 (F := Ideal) dst)
    (Host.gather gather_S100000x128_S1600000x1_S1600000x128_1_0_n_n_0_1_1128 x (val_main_v23 (F := Ideal) src))

variable (x0 : (⟨S100000x128, .f32⟩ : BufTy).Contents (Elt Ideal)) (x1 x2 : (⟨S1600000, .i32⟩ : BufTy).Contents (Elt Ideal))
  (x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))

/-- The reference's first aggregate is the aggregation of the out-normalised features. -/
theorem v27_agg : val_main_v27 (F := Ideal) x0 x1 x2 = agg x1 x2 (val_main_v17 (F := Ideal) x0 x1) := rfl
/-- Its second is the aggregation of the first layer's output. -/
theorem v45_agg : val_main_v45 (F := Ideal) x0 x1 x2 x3 x4 = agg x1 x2 (val_main_v35 (F := Ideal) x0 x1 x2 x3 x4) := rfl
/-- Its third is the aggregation of the pre-scaled second layer's output. -/
theorem v70_agg : val_main_v70 (F := Ideal) x0 x1 x2 x3 x4 x5 x6 x7 = agg x1 x2 (val_main_v60 (F := Ideal) x0 x1 x2 x3 x4 x5 x6 x7) := rfl
/-- Its fourth is the aggregation of the pre-scaled first Chebyshev term. -/
theorem v85_agg : val_main_v85 (F := Ideal) x0 x1 x2 x3 x4 x5 x6 x7 = agg x1 x2 (val_main_v75 (F := Ideal) x0 x1 x2 x3 x4 x5 x6 x7) := rfl

end Cert.Bridge

end
-- ==== Proof.Layers.lean ====
/-
  The dense halves of the three graph-convolution layers, entry by entry, on the extended reals.

  Each layer of the network is an aggregation over edges (a gather followed by a scatter-add, not opened here)
  followed by a dense map on the node-by-feature matrix. The dense maps are written below as whole-array functions
  of their operand arrays. Every per-node scalar (a degree normaliser, a reciprocal degree) is an n x 1 column and
  every bias a 1 x h row, as the tiled programs hold them. For node p and feature q:

    convRelu   : max (sum_k (a[p,k] * n[p]) * W[k,q] + b[q]) 0                      (normalised aggregate, linear, relu)
    sageRelu   : max ((sum_k h[p,k] * Ws[k,q] + sum_k (g[p,k] * r[p]) * Wn[k,q]) + b[q]) 0
                                                                                   (self term plus mean-of-neighbours term)
    rowScale   : x[p,q] * n[p]                                                      (pre-scaling for the next aggregation)
    chebNeg    : 0 - g[p,q] * n[p]                                                  (first Chebyshev term, T1 = -A^ x)
    chebRec    : (-2) * (g[p,q] * n[p]) - x0[p,q]                                   (recurrence T2 = -2 A^ T1 - T0)
    chebOut    : ((sum_k T0[p,k] W0[k,q] + sum_k T1[p,k] W1[k,q]) + sum_k T2[p,k] W2[k,q]) + b[q]
                                                                                   (projection of the three terms)

  The constants 0 and -2 are kept as the float words the programs carry; they are the same words on both sides of
  every comparison and are never evaluated, except that the word of 1 is known to be positive.
-/
import Idealize.ShloMosaic.Lib.ValueIdx
import Idealize.ShloMosaic.PureOps.Ideal.Laws

noncomputable section

namespace Cert.Layers

open Idealize.ShloMosaic Idealize.ShloMosaic.ValueIdx
open scoped BigOperators

/-- An a x b array of extended reals. -/
abbrev Arr (a b : ℕ) : Type := (⟨2, ![a, b]⟩ : Shape).Idx → EReal

/-- The float word of zero, read on the extended reals. -/
abbrev zw : EReal := Ideal.ofBits .f32 0x00000000#32
/-- The float word of minus two, read on the extended reals. -/
abbrev m2w : EReal := Ideal.ofBits .f32 0xC0000000#32

variable {n h o : ℕ}

/-- Rows of the aggregate scaled by the node's normaliser, times the weights, plus the bias, clamped below at zero. -/
def convRelu (a : Arr n h) (s : Arr n 1) (W : Arr h o) (b : Arr 1 o) : Arr n o := fun j =>
  max ((∑ k : Fin h, (a (ix2 (j 0) k) * s (ix2 (j 0) 0)) * W (ix2 k (j 1))) + b (ix2 0 (j 1))) zw

/-- The self term plus the mean-of-neighbours term (the aggregate scaled by the reciprocal degree), plus the bias,
    clamped below at zero. -/
def sageRelu (x : Arr n h) (g : Arr n h) (r : Arr n 1) (Ws : Arr h o) (b : Arr 1 o) (Wn : Arr h o) : Arr n o := fun j =>
  max (((∑ k : Fin h, x (ix2 (j 0) k) * Ws (ix2 k (j 1))) + (∑ k : Fin h, (g (ix2 (j 0) k) * r (ix2 (j 0) 0)) * Wn (ix2 k (j 1))))
    + b (ix2 0 (j 1))) zw

/-- Every row scaled by its node's scalar. -/
def rowScale (x : Arr n h) (s : Arr n 1) : Arr n h := fun j => x j * s (ix2 (j 0) 0)

/-- The first Chebyshev term: the negated, normalised aggregate (written as zero minus it). -/
def chebNeg (g : Arr n h) (s : Arr n 1) : Arr n h := fun j => zw - g j * s (ix2 (j 0) 0)

/-- The Chebyshev recurrence: minus twice the normalised aggregate, minus the term two steps back. -/
def chebRec (g : Arr n h) (s : Arr n 1) (x0 : Arr n h) : Arr n h := fun j => m2w * (g j * s (ix2 (j 0) 0)) - x0 j

/-- The projection: the three Chebyshev terms against their three blocks of the weight matrix, plus the bias. -/
def chebOut (t0 t1 t2 : Arr n h) (W0 W1 W2 : Arr h o) (b : Arr 1 o) : Arr n o := fun j =>
  (((∑ k : Fin h, t0 (ix2 (j 0) k) * W0 (ix2 k (j 1))) + (∑ k : Fin h, t1 (ix2 (j 0) k) * W1 (ix2 k (j 1))))
    + (∑ k : Fin h, t2 (ix2 (j 0) k) * W2 (ix2 k (j 1)))) + b (ix2 0 (j 1))

theorem convRelu_ix2 (a : Arr n h) (s : Arr n 1) (W : Arr h o) (b : Arr 1 o) (p : Fin n) (q : Fin o) :
    convRelu a s W b (ix2 p q) = max ((∑ k : Fin h, (a (ix2 p k) * s (ix2 p 0)) * W (ix2 k q)) + b (ix2 0 q)) zw := rfl

theorem sageRelu_ix2 (x g : Arr n h) (r : Arr n 1) (Ws : Arr h o) (b : Arr 1 o) (Wn : Arr h o) (p : Fin n) (q : Fin o) :
    sageRelu x g r Ws b Wn (ix2 p q)
      = max (((∑ k : Fin h, x (ix2 p k) * Ws (ix2 k q)) + (∑ k : Fin h, (g (ix2 p k) * r (ix2 p 0)) * Wn (ix2 k q))) + b (ix2 0 q)) zw := rfl

theorem rowScale_ix2 (x : Arr n h) (s : Arr n 1) (p : Fin n) (q : Fin h) : rowScale x s (ix2 p q) = x (ix2 p q) * s (ix2 p 0) := rfl

theorem chebNeg_ix2 (g : Arr n h) (s : Arr n 1) (p : Fin n) (q : Fin h) : chebNeg g s (ix2 p q) = zw - g (ix2 p q) * s (ix2 p 0) := rfl

theorem chebRec_ix2 (g : Arr n h) (s : Arr n 1) (x0 : Arr n h) (p : Fin n) (q : Fin h) :
    chebRec g s x0 (ix2 p q) = m2w * (g (ix2 p q) * s (ix2 p 0)) - x0 (ix2 p q) := rfl

theorem chebOut_ix2 (t0 t1 t2 : Arr n h) (W0 W1 W2 : Arr h o) (b : Arr 1 o) (p : Fin n) (q : Fin o) :
    chebOut t0 t1 t2 W0 W1 W2 b (ix2 p q)
      = (((∑ k : Fin h, t0 (ix2 p k) * W0 (ix2 k q)) + (∑ k : Fin h, t1 (ix2 p k) * W1 (ix2 k q)))
          + (∑ k : Fin h, t2 (ix2 p k) * W2 (ix2 k q))) + b (ix2 0 q) := rfl

/-- Division by a nonzero extended real is the product with its reciprocal. -/
theorem div_eq_mul_one_div (x d : EReal) (hd : d ≠ 0) : Ideal.div x d = x * Ideal.div 1 d := by
  unfold Ideal.div
  rw [if_neg hd, if_neg hd, one_mul]

end Cert.Layers

end
-- ==== Proof.LibColumn.lean ====
/-
  A per-row scalar held as an n x 1 column, read at an entry.

  A tiled program keeps one scalar per row of an n x h matrix (a degree normaliser, a reciprocal degree) as an
  n x 1 column. Spread across the row — as a kernel body does with a broadcast, or the host with a
  broadcast-in-dimension along both axes — entry (p, q) is the column's entry (p, 0). The column itself is the
  length-n vector recast to n x 1 (a reshape, or a broadcast-in-dimension along axis 0): entry (p, 0) is the
  vector's entry p.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- Kernel form: an `[n, 1]` column broadcast to `[n, h]` reads, at `(p, q)`, the column at `(p, 0)`. -/
theorem broadcastTo_col_apply {n h : ℕ} (v : (⟨2, ![n, 1]⟩ : Shape).Idx → α)
    (hb : (⟨2, ![n, 1]⟩ : Shape).Broadcasts ⟨2, ![n, h]⟩) (p : Fin n) (q : Fin h) :
    broadcastTo ⟨2, ![n, h]⟩ v hb (ix2 p q) = v (ix2 p 0) :=
  broadcastTo_apply v hb (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- Host form: an `[n, 1]` column broadcast in dimension (axes 0 and 1) to `[n, h]` reads, at `(p, q)`, the column at
    `(p, 0)`. -/
theorem broadcastInDim_col_apply {n h : ℕ} (v : (⟨2, ![n, 1]⟩ : Shape).Idx → α)
    (hb : (⟨2, ![n, 1]⟩ : Shape).BroadcastsInDim ⟨2, ![n, h]⟩ ![0, 1]) (p : Fin n) (q : Fin h) :
    broadcastInDim ⟨2, ![n, h]⟩ ![0, 1] hb v (ix2 p q) = v (ix2 p 0) :=
  broadcastInDim_apply _ hb v (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- A length-`n` vector recast to the `[n, 1]` column reads, at `(p, 0)`, the vector at `p`. -/
theorem shapeCast_col_apply {n : ℕ} (v : (⟨1, ![n]⟩ : Shape).Idx → α)
    (hc : (⟨1, ![n]⟩ : Shape).ShapeCasts ⟨2, ![n, 1]⟩) (p : Fin n) :
    shapeCast ⟨2, ![n, 1]⟩ v hc (ix2 p 0) = v (ix1 p) := by
  refine shapeCast_apply v hc _ _ ?_
  rw [Shape.rowMajor_val_two, Shape.rowMajor_val_one]
  show p.val = p.val * 1 + 0
  omega

/-- A length-`n` vector broadcast in dimension (along axis 0) to the `[n, 1]` column reads, at `(p, 0)`, the vector at `p`. -/
theorem broadcastInDim_vec_col_apply {n : ℕ} (v : (⟨1, ![n]⟩ : Shape).Idx → α)
    (hb : (⟨1, ![n]⟩ : Shape).BroadcastsInDim ⟨2, ![n, 1]⟩ ![0]) (p : Fin n) :
    broadcastInDim ⟨2, ![n, 1]⟩ ![0] hb v (ix2 p 0) = v (ix1 p) :=
  broadcastInDim_apply _ hb v (ix2 p (0 : Fin 1)) (ix1 p) (fun a => by
    match a with
    | ⟨0, _⟩ =>
      show p.val = if n = 1 then 0 else p.val
      split_ifs with hn
      · have := p.isLt; omega
      · rfl)

/-- A length-`h` vector recast to the `[1, h]` row reads, at `(0, q)`, the vector at `q`. -/
theorem shapeCast_row_apply {h : ℕ} (v : (⟨1, ![h]⟩ : Shape).Idx → α)
    (hc : (⟨1, ![h]⟩ : Shape).ShapeCasts ⟨2, ![1, h]⟩) (q : Fin h) :
    shapeCast ⟨2, ![1, h]⟩ v hc (ix2 0 q) = v (ix1 q) := by
  refine shapeCast_apply v hc _ _ ?_
  rw [Shape.rowMajor_val_two, Shape.rowMajor_val_one]
  show q.val = 0 * h + q.val
  omega

/-- Kernel form: a `[1, h]` row broadcast to `[n, h]` reads, at `(p, q)`, the row at `(0, q)`. -/
theorem broadcastTo_row_apply {n h : ℕ} (v : (⟨2, ![1, h]⟩ : Shape).Idx → α)
    (hb : (⟨2, ![1, h]⟩ : Shape).Broadcasts ⟨2, ![n, h]⟩) (p : Fin n) (q : Fin h) :
    broadcastTo ⟨2, ![n, h]⟩ v hb (ix2 p q) = v (ix2 0 q) :=
  broadcastTo_apply v hb (ix2 p q) (ix2 (0 : Fin 1) q) (fun a => by
    match a with
    | ⟨0, _⟩ => rfl
    | ⟨1, _⟩ =>
      show q.val = if h = 1 then 0 else q.val
      split_ifs with hh
      · have := q.isLt; omega
      · rfl)

end Cert.LibColumn

end
-- ==== Proof.Boundary1.lean ====
/-
  The TensorCore's buffers when the first region is entered.

  Before the first region the host computes, from the edge lists, the two degree vectors, the normalisers
  max(deg, 1)^(-1/2) and the reciprocal max(deg_in, 1)^(-1), recasts each to a 100000 x 1 column, scales the features
  by the out-normaliser, aggregates them over the edges and recasts the first bias to a 1 x 128 row. Read against the
  reference's stages: the aggregate is the reference's first aggregate, the in-normaliser column holds the reference's
  in-normaliser vector, the reciprocal column holds one over the reference's clamped in-degree, and the arguments are
  as launched.
-/
import proofs.«111396_j42992622633741_2_alg».proof.Proof.Gen.KernelIdeal.Frame
import proofs.«111396_j42992622633741_2_alg».proof.Proof.Gen.ReferenceIdeal.Read
import proofs.«111396_j42992622633741_2_alg».proof.Proof.Aggregate
import proofs.«111396_j42992622633741_2_alg».proof.Proof.Layers
import proofs.«111396_j42992622633741_2_alg».proof.Proof.LibColumn
import Idealize.ShloMosaic.Lib.StableHlo.Run

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem step1_arg1 (c : Dev nD) : W1 m ρ c (Proc.devRef .tc main_arg1) = W0 m ρ c (Proc.devRef .tc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg2 (c : Dev nD) : W1 m ρ c (Proc.devRef .tc main_arg2) = W0 m ρ c (Proc.devRef .tc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg3 (c : Dev nD) : W1 m ρ c (Proc.devRef .tc main_arg3) = W0 m ρ c (Proc.devRef .tc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg5 (c : Dev nD) : W1 m ρ c (Proc.devRef .tc main_arg5) = W0 m ρ c (Proc.devRef .tc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg6 (c : Dev nD) : W1 m ρ c (Proc.devRef .tc main_arg6) = W0 m ρ c (Proc.devRef .tc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg7 (c : Dev nD) : W1 m ρ c (Proc.devRef .tc main_arg7) = W0 m ρ c (Proc.devRef .tc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg8 (c : Dev nD) : W1 m ρ c (Proc.devRef .tc main_arg8) = W0 m ρ c (Proc.devRef .tc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step1_arg9 (c : Dev nD) : W1 m ρ c (Proc.devRef .tc main_arg9) = W0 m ρ c (Proc.devRef .tc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The out-normalised features: the host's product with the column spread across the row is the reference's stage,
    since a vector recast to a column and the vector broadcast along axis 0 hold the same entries. -/
theorem scaled_feat (c : Dev nD) :
    mulf (F := Ideal) (φ := .f32) (m ((c : Thread nD τ).loc main_arg0)) (broadcastInDim S100000x128 ![0, 1] bcast_S100000x1_S100000x128_0_1
      (shapeCast S100000x1 (Cert.ReferenceIdeal.Read.val_main_v14 (F := Ideal) (m ((c : Thread nD τ).loc main_arg1))) shapeCasts_S100000_S100000x1))
    = Cert.ReferenceIdeal.Read.val_main_v17 (F := Ideal) (m ((c : Thread nD τ).loc main_arg0)) (m ((c : Thread nD τ).loc main_arg1)) := by
  funext j
  obtain ⟨p, q, rfl⟩ : ∃ (p : Fin 100000) (q : Fin 128), j = ix2 p q := ⟨j 0, j 1, eq_ix2 j⟩
  have hi : Cert.ReferenceIdeal.Read.idx_main_v15 (Cert.ReferenceIdeal.Read.idx_main_v16 (ix2 p q)) = ix1 p :=
    funext fun a => Fin.ext (by match a with | ⟨0, _⟩ => rfl)
  rw [Cert.ReferenceIdeal.Read.val_main_v17_apply, Cert.ReferenceIdeal.Read.val_main_v16_apply, Cert.ReferenceIdeal.Read.val_main_v15_apply, hi]
  show FloatOps.mulf (F := Ideal) (φ := .f32) ((m ((c : Thread nD τ).loc main_arg0)) (ix2 p q)) (broadcastInDim S100000x128 ![0, 1] bcast_S100000x1_S100000x128_0_1
      (shapeCast S100000x1 (Cert.ReferenceIdeal.Read.val_main_v14 (F := Ideal) (m ((c : Thread nD τ).loc main_arg1))) shapeCasts_S100000_S100000x1) (ix2 p q)) = _
  rw [broadcastInDim_col_apply, shapeCast_col_apply]

/-- The first aggregate, as the host computes it, is the reference's first aggregate. -/
theorem w1_v33 (c : Dev nD) : W1 m ρ c (Proc.devRef .tc main_v33) = Cert.ReferenceIdeal.Read.val_main_v27 (F := Ideal) (m ((c : Thread nD τ).loc main_arg0)) (m ((c : Thread nD τ).loc main_arg1)) (m ((c : Thread nD τ).loc main_arg2)) := by
  have e : W1 m ρ c (Proc.devRef .tc main_v33) = agg (m ((c : Thread nD τ).loc main_arg1)) (m ((c : Thread nD τ).loc main_arg2)) (mulf (F := Ideal) (φ := .f32) (m ((c : Thread nD τ).loc main_arg0)) (broadcastInDim S100000x128 ![0, 1] bcast_S100000x1_S100000x128_0_1
      (shapeCast S100000x1 (Cert.ReferenceIdeal.Read.val_main_v14 (F := Ideal) (m ((c : Thread nD τ).loc main_arg1))) shapeCasts_S100000_S100000x1))) := by
    show StableHlo.after hostOps0 (W0 m ρ c) (Proc.devRef .tc main_v33) = _
    after_results_simp
    rfl
  rw [e, scaled_feat m c, ← v27_agg]

/-- The in-normaliser column is the reference's in-normaliser vector recast to a column. -/
theorem w1_v11 (c : Dev nD) : W1 m ρ c (Proc.devRef .tc main_v11) = (shapeCast S100000x1 (Cert.ReferenceIdeal.Read.val_main_v10 (F := Ideal) (m ((c : Thread nD τ).loc main_arg2))) shapeCasts_S100000_S100000x1) := by
  show StableHlo.after hostOps0 (W0 m ρ c) (Proc.devRef .tc main_v11) = _
  after_results_simp
  rfl

/-- The reciprocal-degree column is one over the reference's clamped in-degree, recast to a column. -/
theorem w1_v21 (c : Dev nD) : W1 m ρ c (Proc.devRef .tc main_v21) = (shapeCast S100000x1 (Host.divf (F := Ideal) (φ := .f32) (Cert.ReferenceIdeal.Read.val_main_v46 (F := Ideal)) (Cert.ReferenceIdeal.Read.val_main_v47 (F := Ideal) (m ((c : Thread nD τ).loc main_arg2)))) shapeCasts_S100000_S100000x1) := by
  show StableHlo.after hostOps0 (W0 m ρ c) (Proc.devRef .tc main_v21) = _
  after_results_simp
  rfl

/-- The first bias row is the bias vector recast to a row. -/
theorem w1_v34 (c : Dev nD) : W1 m ρ c (Proc.devRef .tc main_v34) = shapeCast S1x128 (m ((c : Thread nD τ).loc main_arg4)) shapeCasts_S128_S1x128 := by
  show StableHlo.after hostOps0 (W0 m ρ c) (Proc.devRef .tc main_v34) = _
  after_results_simp
  rfl

end Cert.KernelIdeal.Boundaries

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.ConvReluBlocks.lean ====
/-
  The first layer's dense map, from row blocks to the whole array.

  The region walks the 100000 nodes in 20 blocks of 5000 rows. At block t it reads rows 5000 t … 5000 t + 4999 of the
  aggregate a and of the normaliser column s, the whole 128 x 128 weight matrix W and the whole bias row b, and writes
  the same rows of max (sum_k (a[p,k] * s[p]) * W[k,q] + b[q]) 0. Row p of the result depends only on row p of a and s
  (the matrix product is over the feature axis, which a block holds whole), so every block is the restriction of one
  whole-array function, and the 20 blocks tile the array.
-/
import proofs.«111396_j42992622633741_2_alg».proof.Proof.Gen.KernelIdeal.Frame
import proofs.«111396_j42992622633741_2_alg».proof.Proof.Layers
import proofs.«111396_j42992622633741_2_alg».proof.Proof.LibColumn
import proofs.«111396_j42992622633741_2_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ConvReluBlocks

open Cert.KernelIdeal Cert.KernelIdeal.Gen Cert.Layers Cert.LibColumn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer's product contracts the left operand's feature axis with the weight matrix's rows. -/
theorem rbc : Idealize.ShloMosaic.MatmulRead.RowsByCols dot_S5000x128_S128x128_S5000x128_1_0_0_1_n_n := ⟨rfl, rfl, rfl, rfl, rfl, rfl⟩

/-- The body's stored value at an entry: the scaled row against the weight column, plus the bias, clamped at zero. -/
theorem pay_conv (x0 : Vec Ideal S5000x128 .f32) (x1 : Vec Ideal S5000x1 .f32) (x2 : Vec Ideal S128x128 .f32) (x3 : Vec Ideal S1x128 .f32)
    (r : Fin 5000) (q : Fin 128) :
    k0_pay1 x0 x1 x2 x3 (ix2 r q) = max ((∑ k : Fin 128, (x0 (ix2 r k) * x1 (ix2 r 0)) * x2 (ix2 k q)) + x3 (ix2 0 q)) zw := by
  unfold k0_pay1
  simp only [shapeCast_self]
  show max (FloatOps.matmul (F := Ideal) dot_S5000x128_S128x128_S5000x128_1_0_0_1_n_n (some .fp32) (mulf x0 (broadcastTo S5000x128 x1 broadcasts_S5000x1_S5000x128)) x2
      (constant (F := Ideal) S5000x128 .f32 0x00000000#32) (ix2 r q) + broadcastTo S5000x128 x3 broadcasts_S1x128_S5000x128 (ix2 r q)) zw = _
  rw [Idealize.ShloMosaic.MatmulRead.matmul_zero_ix2 rbc rfl rfl, broadcastTo_row_apply]
  simp only [mulf_apply, broadcastTo_col_apply]

/-- The printed index maps, decided over the grid: a row-blocked window's block at point t starts at row block t, a whole
    window's at the origin; every column block is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

set_option maxHeartbeats 4000000 in
/-- What point t writes back is block t of the layer's dense map, as a function of the arrays the region found. -/
theorem flushed4_eq (c : Dev nD) (t : Fin cfg0.N) :
    (dat0 V c).flushed 4 t = ((cfg0.win 4).blk t).view.read (Elt Ideal) (convRelu (V c main_v33) (V c main_v11) (V c main_arg3) (V c main_v34)) := by
  show (cfg0.win 4).cut (grid0.coords t) ((dat0 V c).after 4 t) = _
  rw [after0_4]
  unfold out0_4
  rw [View.canon_unit_zero hz]
  simp only [View.ld_unit_zero (S := S5000x128) hz, View.ld_unit_zero (S := S5000x1) hz, View.ld_unit_zero (S := S128x128) hz, View.ld_unit_zero (S := S1x128) hz]
  obtain ⟨e00, e01, e10, e11, e20, e21, e30, e31, e40, e41⟩ := idx_facts t
  have ht : t.val < 20 := by have h := t.isLt; have hN : cfg0.N = 20 := N_0; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg0.win 0).blk t).view.emb (ix2 r x) = (ix2 (⟨t.val * 5000 + r.val, by omega⟩ : Fin 100000) x : S100000x128.Idx) := fun x => by
    funext a; apply Fin.ext
    match a with
    | ⟨0, _⟩ => show win0_0.index t (0 : Fin 2) * 5000 + 1 * r.val = t.val * 5000 + r.val; omega
    | ⟨1, _⟩ => show win0_0.index t (1 : Fin 2) * 128 + 1 * x.val = x.val; omega
  have h1 : ∀ (x : Fin 1), ((cfg0.win 1).blk t).view.emb (ix2 r x) = (ix2 (⟨t.val * 5000 + r.val, by omega⟩ : Fin 100000) x : S100000x1.Idx) := fun x => by
    funext a; apply Fin.ext
    match a with
    | ⟨0, _⟩ => show win0_1.index t (0 : Fin 2) * 5000 + 1 * r.val = t.val * 5000 + r.val; omega
    | ⟨1, _⟩ => show win0_1.index t (1 : Fin 2) * 1 + 1 * x.val = x.val; omega
  have h2 : ∀ (u : Fin 128) (x : Fin 128), ((cfg0.win 2).blk t).view.emb (ix2 u x) = (ix2 u x : S128x128.Idx) := fun u x => by
    funext a; apply Fin.ext
    match a with
    | ⟨0, _⟩ => show win0_2.index t (0 : Fin 2) * 128 + 1 * u.val = u.val; omega
    | ⟨1, _⟩ => show win0_2.index t (1 : Fin 2) * 128 + 1 * x.val = x.val; omega
  have h3 : ∀ (u : Fin 1) (x : Fin 128), ((cfg0.win 3).blk t).view.emb (ix2 u x) = (ix2 u x : S1x128.Idx) := fun u x => by
    funext a; apply Fin.ext
    match a with
    | ⟨0, _⟩ => show win0_3.index t (0 : Fin 2) * 1 + 1 * u.val = u.val; omega
    | ⟨1, _⟩ => show win0_3.index t (1 : Fin 2) * 128 + 1 * x.val = x.val; omega
  have ho : ((cfg0.win 4).blk t).view.emb (ix2 r q) = (ix2 (⟨t.val * 5000 + r.val, by omega⟩ : Fin 100000) q : S100000x128.Idx) := by
    funext a; apply Fin.ext
    match a with
    | ⟨0, _⟩ => show win0_4.index t (0 : Fin 2) * 5000 + 1 * r.val = t.val * 5000 + r.val; omega
    | ⟨1, _⟩ => show win0_4.index t (1 : Fin 2) * 128 + 1 * q.val = q.val; omega
  refine (pay_conv _ _ _ _ r q).trans ?_
  show max ((∑ k : Fin 128, ((id (V c main_v33) : Arr 100000 128) (((cfg0.win 0).blk t).view.emb (ix2 r k)) * (id (V c main_v11) : Arr 100000 1) (((cfg0.win 1).blk t).view.emb (ix2 r 0))) * (id (V c main_arg3) : Arr 128 128) (((cfg0.win 2).blk t).view.emb (ix2 k q))) + (id (V c main_v34) : Arr 1 128) (((cfg0.win 3).blk t).view.emb (ix2 0 q))) zw
    = (convRelu (V c main_v33) (V c main_v11) (V c main_arg3) (V c main_v34)) (((cfg0.win 4).blk t).view.emb (ix2 r q))
  simp only [h0, h1, h2, h3, ho]
  rfl

/-- An index of the array is in point t's block iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v35).slice (win0_4.rect t)).set ↔ _
  rw [View.set_slice_whole, Rect.mem_set_unit]
  exact Iff.rfl

/-- The 20 row blocks tile the array: row i lies in block i / 5000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_4 _, ?_⟩
  rw [mem_blk4]
  obtain ⟨e00, e01, e10, e11, e20, e21, e30, e31, e40, e41⟩ := idx_facts ⟨(i 0).val / 5000, hlt⟩
  intro a
  match a with
  | ⟨0, _⟩ => show win0_4.index _ (0 : Fin 2) * 5000 ≤ (i 0).val ∧ (i 0).val < win0_4.index _ (0 : Fin 2) * 5000 + 5000; rw [e40]; show (i 0).val / 5000 * 5000 ≤ (i 0).val ∧ (i 0).val < (i 0).val / 5000 * 5000 + 5000; omega
  | ⟨1, _⟩ => show win0_4.index _ (1 : Fin 2) * 128 ≤ (i 1).val ∧ (i 1).val < win0_4.index _ (1 : Fin 2) * 128 + 128; rw [e41]; omega

set_option maxHeartbeats 4000000 in
/-- After the region the output array is the layer's dense map of the arrays the region found. -/
theorem final4 (c : Dev nD) : (dat0 V c).arrAt 4 cfg0.N = convRelu (V c main_v33) (V c main_v11) (V c main_arg3) (V c main_v34) :=
  (dat0 V c).arrAt_eq_of_cover 4 _ (fun t _ => flushed4_eq V c t) cover4

end Cert.KernelIdeal.ConvReluBlocks

end
-- ==== Proof.RefLayers.lean ====
/-
  The reference program's dense stages, read entry by entry, are the dense layer maps of the network.

  Each theorem takes one stage of the reference program (a function of the program's arguments), reads it at a
  node p and a feature q through the stages that define it, and finds the corresponding layer map applied to the
  aggregate the stage starts from. The aggregations themselves (sums over edges) are never opened: they enter both
  sides as the same array. A per-node scalar is held on the layer-map side as an n x 1 column and a bias as a
  1 x h row; the hypotheses say what each column and row holds.
-/
import proofs.«111396_j42992622633741_2_alg».proof.Proof.Gen.ReferenceIdeal.Read
import proofs.«111396_j42992622633741_2_alg».proof.Proof.Layers
import Idealize.ShloMosaic.Lib.IdealHost
import Idealize.ShloMosaic.Lib.Pipeline.Value
import Idealize.ShloMosaic.Lib.ValueIdx
import Idealize.ShloMosaic.PureOps.Ideal.Laws

noncomputable section

namespace Cert.RefLayers

open Cert.ReferenceIdeal Cert.ReferenceIdeal.Read Cert.Layers Idealize.ShloMosaic Idealize.ShloMosaic.ValueIdx
open scoped BigOperators

variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal))
  (x4 : (⟨S128, .f32⟩ : BufTy).Contents (Elt Ideal))
  (x5 x6 : (⟨S128x128, .f32⟩ : BufTy).Contents (Elt Ideal))
  (x7 : (⟨S128, .f32⟩ : BufTy).Contents (Elt Ideal))
  (x8 : (⟨S384x64, .f32⟩ : BufTy).Contents (Elt Ideal))
  (x9 : (⟨S64, .f32⟩ : BufTy).Contents (Elt Ideal))

/-! ### Index functions of the reference stages, at a node p and a feature q -/

private theorem lidx31 (p : Fin 100000) (q k : Fin 128) : lidx_main_v31 (ix2 p q) k = ix2 p k :=
  funext fun a => Fin.ext (by match a with | ⟨0, _⟩ => rfl | ⟨1, _⟩ => rfl)
private theorem ridx31 (p : Fin 100000) (q k : Fin 128) : ridx_main_v31 (ix2 p q) k = ix2 k q :=
  funext fun a => Fin.ext (by match a with | ⟨0, _⟩ => rfl | ⟨1, _⟩ => rfl)

/-- The reference's first normaliser, broadcast along the features, read at (p, q): the normaliser of node p. -/
private theorem v29_ix2 (p : Fin 100000) (q : Fin 128) :
    val_main_v29 (F := Ideal) x2 (ix2 p q) = val_main_v10 (F := Ideal) x2 (ix1 p) := by
  rw [val_main_v29_apply, val_main_v28_apply]
  exact congrArg (val_main_v10 (F := Ideal) x2) (funext fun a => Fin.ext (by match a with | ⟨0, _⟩ => rfl))

/-- The first bias, broadcast along the nodes, read at (p, q): the bias of feature q. -/
private theorem v33_ix2 (p : Fin 100000) (q : Fin 128) :
    val_main_v33 (F := Ideal) x4 (ix2 p q) = x4 (ix1 q) := by
  rw [val_main_v33_apply, val_main_v32_apply]
  exact congrArg x4 (funext fun a => Fin.ext (by match a with | ⟨0, _⟩ => rfl))

/-- The zero the first clamp compares with is the float word of zero. -/
private theorem call0_zero (j : S100000x128.Idx) : val_main_call0_v0 (F := Ideal) j = zw := by
  rw [val_main_call0_v0_apply, val_main_call0_cst_apply]; rfl

/-- The first layer's product with the weights at (p, q): the sum over k of the aggregate at (p, k), scaled by the
    normaliser of node p, times the weight at (k, q). -/
private theorem v31_ix2 (p : Fin 100000) (q : Fin 128) :
    val_main_v31 (F := Ideal) x0 x1 x2 x3 (ix2 p q)
      = ∑ k : Fin 128, (val_main_v27 (F := Ideal) x0 x1 x2 (ix2 p k) * val_main_v10 (F := Ideal) x2 (ix1 p)) * x3 (ix2 k q) := by
  rw [val_main_v31_apply]
  refine Finset.sum_congr rfl fun k _ => ?_
  rw [lidx31, ridx31, val_main_v30_apply, v29_ix2, Ideal.mulf_def]

/-- Layer 1: the reference's first layer output is the normalised aggregate times the weights, plus the bias,
    clamped below at zero. -/
theorem layer1 (s : Arr 100000 1) (b : Arr 1 128)
    (hs : ∀ p : Fin 100000, s (ix2 p 0) = val_main_v10 (F := Ideal) x2 (ix1 p))
    (hb : ∀ q : Fin 128, b (ix2 0 q) = x4 (ix1 q)) :
    convRelu (val_main_v27 (F := Ideal) x0 x1 x2) s x3 b = val_main_v35 (F := Ideal) x0 x1 x2 x3 x4 := by
  funext j
  obtain ⟨p, q, rfl⟩ : ∃ (p : Fin 100000) (q : Fin 128), j = ix2 p q := ⟨j 0, j 1, eq_ix2 j⟩
  rw [convRelu_ix2, val_main_v35_apply, val_main_v34_apply, v31_ix2, call0_zero, v33_ix2, hs, hb,
    Ideal.addf_def, Ideal.maximumf_def]

/-! ### Layer 2: self term plus mean of the neighbours -/

private theorem lidx51 (p : Fin 100000) (q k : Fin 128) : lidx_main_v51 (ix2 p q) k = ix2 p k :=
  funext fun a => Fin.ext (by match a with | ⟨0, _⟩ => rfl | ⟨1, _⟩ => rfl)
private theorem ridx51 (p : Fin 100000) (q k : Fin 128) : ridx_main_v51 (ix2 p q) k = ix2 k q :=
  funext fun a => Fin.ext (by match a with | ⟨0, _⟩ => rfl | ⟨1, _⟩ => rfl)
private theorem lidx55 (p : Fin 100000) (q k : Fin 128) : lidx_main_v55 (ix2 p q) k = ix2 p k :=
  funext fun a => Fin.ext (by match a with | ⟨0, _⟩ => rfl | ⟨1, _⟩ => rfl)
private theorem ridx55 (p : Fin 100000) (q k : Fin 128) : ridx_main_v55 (ix2 p q) k = ix2 k q :=
  funext fun a => Fin.ext (by match a with | ⟨0, _⟩ => rfl | ⟨1, _⟩ => rfl)

/-- The clamped degree, broadcast along the features, read at (p, q): the clamped degree of node p. -/
private theorem v49_ix2 (p : Fin 100000) (q : Fin 128) :
    val_main_v49 (F := Ideal) x2 (ix2 p q) = val_main_v47 (F := Ideal) x2 (ix1 p) := by
  rw [val_main_v49_apply, val_main_v48_apply]
  exact congrArg (val_main_v47 (F := Ideal) x2) (funext fun a => Fin.ext (by match a with | ⟨0, _⟩ => rfl))

/-- The second bias, broadcast along the nodes, read at (p, q): the bias of feature q. -/
private theorem v53_ix2 (p : Fin 100000) (q : Fin 128) :
    val_main_v53 (F := Ideal) x7 (ix2 p q) = x7 (ix1 q) := by
  rw [val_main_v53_apply, val_main_v52_apply]
  exact congrArg x7 (funext fun a => Fin.ext (by match a with | ⟨0, _⟩ => rfl))

/-- The zero the second clamp compares with is the float word of zero. -/
private theorem call1_zero (j : S100000x128.Idx) : val_main_call1_v0 (F := Ideal) j = zw := by
  rw [val_main_call1_v0_apply, val_main_call1_cst_apply]; rfl

/-- The clamped degree max (deg, 1) is at least one, hence not zero. -/
private theorem v47_ne_zero (i : S100000.Idx) : val_main_v47 (F := Ideal) x2 i ≠ 0 := by
  rw [val_main_v47_apply, val_main_v46_apply, val_main_cst_11_apply, Ideal.maximumf_def, Ideal.ofBits_def,
    Ideal.ofBits_one_f32]
  exact ne_of_gt (lt_of_lt_of_le zero_lt_one (le_max_right _ _))

/-- The self term at (p, q): the sum over k of the layer-1 output at (p, k) times the self weight at (k, q). -/
private theorem v51_ix2 (p : Fin 100000) (q : Fin 128) :
    val_main_v51 (F := Ideal) x0 x1 x2 x3 x4 x5 (ix2 p q)
      = ∑ k : Fin 128, val_main_v35 (F := Ideal) x0 x1 x2 x3 x4 (ix2 p k) * x5 (ix2 k q) := by
  rw [val_main_v51_apply]
  refine Finset.sum_congr rfl fun k _ => ?_
  rw [lidx51, ridx51]

/-- The neighbour term at (p, q): the reference divides the aggregate at (p, k) by the clamped degree d of node p;
    since d is not zero this is the product with 1 / d. -/
private theorem v55_ix2 (p : Fin 100000) (q : Fin 128) :
    val_main_v55 (F := Ideal) x0 x1 x2 x3 x4 x6 (ix2 p q)
      = ∑ k : Fin 128, (val_main_v45 (F := Ideal) x0 x1 x2 x3 x4 (ix2 p k)
          * Ideal.div 1 (val_main_v47 (F := Ideal) x2 (ix1 p))) * x6 (ix2 k q) := by
  rw [val_main_v55_apply]
  refine Finset.sum_congr rfl fun k _ => ?_
  rw [lidx55, ridx55, val_main_v50_apply, v49_ix2, Ideal.hostDivf_def,
    div_eq_mul_one_div _ _ (v47_ne_zero x2 (ix1 p))]

/-- Layer 2: the reference's second layer output is the self term plus the aggregate scaled by the reciprocal of the
    clamped degree, times their weights, plus the bias, clamped below at zero. The reference adds the bias before the
    neighbour term; addition on the extended reals is commutative and associative, so the order does not matter. -/
theorem layer2 (r : Arr 100000 1) (b : Arr 1 128)
    (hr : ∀ p : Fin 100000, r (ix2 p 0) = Ideal.div (Ideal.ofBits .f32 0x3F800000#32) (val_main_v47 (F := Ideal) x2 (ix1 p)))
    (hb : ∀ q : Fin 128, b (ix2 0 q) = x7 (ix1 q)) :
    sageRelu (val_main_v35 (F := Ideal) x0 x1 x2 x3 x4) (val_main_v45 (F := Ideal) x0 x1 x2 x3 x4) r x5 b x6
      = val_main_v57 (F := Ideal) x0 x1 x2 x3 x4 x5 x6 x7 := by
  funext j
  obtain ⟨p, q, rfl⟩ : ∃ (p : Fin 100000) (q : Fin 128), j = ix2 p q := ⟨j 0, j 1, eq_ix2 j⟩
  rw [sageRelu_ix2, val_main_v57_apply, val_main_v56_apply, val_main_v54_apply, v51_ix2, v55_ix2, call1_zero, v53_ix2,
    hr, hb, Ideal.ofBits_one_f32, Ideal.maximumf_def, Ideal.addf_def, Ideal.addf_def]
  exact congrArg (fun t => max t zw) (add_right_comm _ _ _)

/-! ### The projection of the three Chebyshev terms -/

private theorem lidx92 (p : Fin 100000) (q : Fin 64) (k : Fin 384) : lidx_main_v92 (ix2 p q) k = ix2 p k :=
  funext fun a => Fin.ext (by match a with | ⟨0, _⟩ => rfl | ⟨1, _⟩ => rfl)
private theorem ridx92 (p : Fin 100000) (q : Fin 64) (k : Fin 384) : ridx_main_v92 (ix2 p q) k = ix2 k q :=
  funext fun a => Fin.ext (by match a with | ⟨0, _⟩ => rfl | ⟨1, _⟩ => rfl)

/-- The third bias, broadcast along the nodes, read at (p, q): the bias of output feature q. -/
private theorem v94_ix2 (p : Fin 100000) (q : Fin 64) :
    val_main_v94 (F := Ideal) x9 (ix2 p q) = x9 (ix1 q) := by
  rw [val_main_v94_apply, val_main_v93_apply]
  exact congrArg x9 (funext fun a => Fin.ext (by match a with | ⟨0, _⟩ => rfl))

/-- A sum over 384 indices is the sum of its three consecutive blocks of 128. -/
private theorem sum_three (f : Fin 384 → EReal) :
    ∑ k : Fin 384, f k
      = ((∑ k : Fin 128, f ⟨k.val, by omega⟩) + (∑ k : Fin 128, f ⟨128 + k.val, by omega⟩))
          + (∑ k : Fin 128, f ⟨256 + k.val, by omega⟩) := by
  have h1 : ∑ k : Fin 384, f k = (∑ i : Fin 128, f (Fin.castAdd 256 i)) + ∑ i : Fin 256, f (Fin.natAdd 128 i) :=
    Fin.sum_univ_add (M := EReal) (a := 128) (b := 256) f
  have h2 : ∑ i : Fin 256, f (Fin.natAdd 128 i)
      = (∑ i : Fin 128, f (Fin.natAdd 128 (Fin.castAdd 128 i))) + ∑ i : Fin 128, f (Fin.natAdd 128 (Fin.natAdd 128 i)) :=
    Fin.sum_univ_add (M := EReal) (a := 128) (b := 128) fun i => f (Fin.natAdd 128 i)
  have h3 : (∑ i : Fin 128, f (Fin.natAdd 128 (Fin.natAdd 128 i))) = ∑ k : Fin 128, f ⟨256 + k.val, by omega⟩ :=
    Finset.sum_congr rfl fun k _ => congrArg f (Fin.ext (by show 128 + (128 + k.val) = 256 + k.val; omega))
  rw [h1, h2, ← add_assoc, h3]
  rfl

/-- The three terms joined side by side, read in the first block of columns: the layer-2 output. -/
private theorem v91_piece0 (p : Fin 100000) (k : Fin 128) (h : k.val < 384) :
    val_main_v91 (F := Ideal) x0 x1 x2 x3 x4 x5 x6 x7 (ix2 p (⟨k.val, h⟩ : Fin 384))
      = val_main_v57 (F := Ideal) x0 x1 x2 x3 x4 x5 x6 x7 (ix2 p k) := by
  unfold val_main_v91
  refine concatenate_apply_piece (t := S100000x384) 1 _ _ _ 0 (by show (0 : Nat) < 3; omega) S100000x128 _ rfl rfl 0 rfl (ix2 p k) ?_ ?_
  · intro b hb
    match b with
    | ⟨0, _⟩ => rfl
    | ⟨1, _⟩ => exact absurd rfl hb
  · show 0 + k.val = k.val
    omega

/-- Read in the second block of columns: the first Chebyshev term. -/
private theorem v91_piece1 (p : Fin 100000) (k : Fin 128) (h : 128 + k.val < 384) :
    val_main_v91 (F := Ideal) x0 x1 x2 x3 x4 x5 x6 x7 (ix2 p (⟨128 + k.val, h⟩ : Fin 384))
      = val_main_v73 (F := Ideal) x0 x1 x2 x3 x4 x5 x6 x7 (ix2 p k) := by
  unfold val_main_v91
  refine concatenate_apply_piece (t := S100000x384) 1 _ _ _ 1 (by show (1 : Nat) < 3; omega) S100000x128 _ rfl rfl 128 rfl (ix2 p k) ?_ ?_
  · intro b hb
    match b with
    | ⟨0, _⟩ => rfl
    | ⟨1, _⟩ => exact absurd rfl hb
  · rfl

/-- Read in the third block of columns: the second Chebyshev term. -/
private theorem v91_piece2 (p : Fin 100000) (k : Fin 128) (h : 256 + k.val < 384) :
    val_main_v91 (F := Ideal) x0 x1 x2 x3 x4 x5 x6 x7 (ix2 p (⟨256 + k.val, h⟩ : Fin 384))
      = val_main_v90 (F := Ideal) x0 x1 x2 x3 x4 x5 x6 x7 (ix2 p k) := by
  unfold val_main_v91
  refine concatenate_apply_piece (t := S100000x384) 1 _ _ _ 2 (by show (2 : Nat) < 3; omega) S100000x128 _ rfl rfl 256 rfl (ix2 p k) ?_ ?_
  · intro b hb
    match b with
    | ⟨0, _⟩ => rfl
    | ⟨1, _⟩ => exact absurd rfl hb
  · rfl

/-- The reference's one product at (p, q): the sum over all 384 columns of the joined terms at (p, k) times the
    weight at (k, q). -/
private theorem v92_ix2 (p : Fin 100000) (q : Fin 64) :
    val_main_v92 (F := Ideal) x0 x1 x2 x3 x4 x5 x6 x7 x8 (ix2 p q)
      = ∑ k : Fin 384, val_main_v91 (F := Ideal) x0 x1 x2 x3 x4 x5 x6 x7 (ix2 p k) * x8 (ix2 k q) := by
  rw [val_main_v92_apply]
  refine Finset.sum_congr rfl fun k _ => ?_
  rw [lidx92, ridx92]

/-- The output: the reference multiplies the three terms, joined side by side, by the whole weight matrix; that one
    sum over 384 columns is the sum of the three products with the three 128-row blocks of the matrix. -/
theorem out (W0 W1 W2 : Arr 128 64) (b : Arr 1 64)
    (h0 : ∀ (k : Fin 128) (q : Fin 64), W0 (ix2 k q) = x8 (ix2 (⟨k.val, by omega⟩ : Fin 384) q))
    (h1 : ∀ (k : Fin 128) (q : Fin 64), W1 (ix2 k q) = x8 (ix2 (⟨128 + k.val, by omega⟩ : Fin 384) q))
    (h2 : ∀ (k : Fin 128) (q : Fin 64), W2 (ix2 k q) = x8 (ix2 (⟨256 + k.val, by omega⟩ : Fin 384) q))
    (hb : ∀ q : Fin 64, b (ix2 0 q) = x9 (ix1 q)) :
    chebOut (val_main_v57 (F := Ideal) x0 x1 x2 x3 x4 x5 x6 x7) (val_main_v73 (F := Ideal) x0 x1 x2 x3 x4 x5 x6 x7)
        (val_main_v90 (F := Ideal) x0 x1 x2 x3 x4 x5 x6 x7) W0 W1 W2 b
      = val_main_v95 (F := Ideal) x0 x1 x2 x3 x4 x5 x6 x7 x8 x9 := by
  funext j
  obtain ⟨p, q, rfl⟩ : ∃ (p : Fin 100000) (q : Fin 64), j = ix2 p q := ⟨j 0, j 1, eq_ix2 j⟩
  rw [chebOut_ix2, val_main_v95_apply, v92_ix2, v94_ix2, Ideal.addf_def, hb, sum_three]
  have e0 : ∀ k : Fin 128, val_main_v57 (F := Ideal) x0 x1 x2 x3 x4 x5 x6 x7 (ix2 p k) * W0 (ix2 k q)
      = val_main_v91 (F := Ideal) x0 x1 x2 x3 x4 x5 x6 x7 (ix2 p (⟨k.val, by omega⟩ : Fin 384))
          * x8 (ix2 (⟨k.val, by omega⟩ : Fin 384) q) := fun k => by rw [v91_piece0, h0]
  have e1 : ∀ k : Fin 128, val_main_v73 (F := Ideal) x0 x1 x2 x3 x4 x5 x6 x7 (ix2 p k) * W1 (ix2 k q)
      = val_main_v91 (F := Ideal) x0 x1 x2 x3 x4 x5 x6 x7 (ix2 p (⟨128 + k.val, by omega⟩ : Fin 384))
          * x8 (ix2 (⟨128 + k.val, by omega⟩ : Fin 384) q) := fun k => by rw [v91_piece1, h1]
  have e2 : ∀ k : Fin 128, val_main_v90 (F := Ideal) x0 x1 x2 x3 x4 x5 x6 x7 (ix2 p k) * W2 (ix2 k q)
      = val_main_v91 (F := Ideal) x0 x1 x2 x3 x4 x5 x6 x7 (ix2 p (⟨256 + k.val, by omega⟩ : Fin 384))
          * x8 (ix2 (⟨256 + k.val, by omega⟩ : Fin 384) q) := fun k => by rw [v91_piece2, h2]
  rw [Finset.sum_congr rfl fun k _ => e0 k, Finset.sum_congr rfl fun k _ => e1 k, Finset.sum_congr rfl fun k _ => e2 k]

end Cert.RefLayers

end
-- ==== Proof.Boundary2.lean ====
/-
  The buffers after the first region and when the second is entered.

  The first region leaves the first layer's output, which by the layer's dense map and the reference's reading of it is
  the reference's first hidden state; its operands and every other buffer are untouched. The host then aggregates that
  state over the edges — the reference's second aggregate — and recasts the second bias to a row.
-/
import proofs.«111396_j42992622633741_2_alg».proof.Proof.Boundary1
import proofs.«111396_j42992622633741_2_alg».proof.Proof.ConvReluBlocks
import proofs.«111396_j42992622633741_2_alg».proof.Proof.RefLayers

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem step2_v11 (c : Dev nD) : W2 m ρ c (Proc.devRef .tc main_v11) = W1 m ρ c (Proc.devRef .tc main_v11) :=
  (W2_arr m ρ c 1).trans (((dat0 (V1 m ρ) c).arrAt_in 1 rfl _).trans (A_eq0 (V1 m ρ) c 1))

theorem step2_v21 (c : Dev nD) : W2 m ρ c (Proc.devRef .tc main_v21) = W1 m ρ c (Proc.devRef .tc main_v21) :=
  W2_of_ne m ρ c main_v21 (by decide)

theorem step2_arg1 (c : Dev nD) : W2 m ρ c (Proc.devRef .tc main_arg1) = W1 m ρ c (Proc.devRef .tc main_arg1) :=
  W2_of_ne m ρ c main_arg1 (by decide)

theorem step2_arg2 (c : Dev nD) : W2 m ρ c (Proc.devRef .tc main_arg2) = W1 m ρ c (Proc.devRef .tc main_arg2) :=
  W2_of_ne m ρ c main_arg2 (by decide)

theorem step2_arg5 (c : Dev nD) : W2 m ρ c (Proc.devRef .tc main_arg5) = W1 m ρ c (Proc.devRef .tc main_arg5) :=
  W2_of_ne m ρ c main_arg5 (by decide)

theorem step2_arg6 (c : Dev nD) : W2 m ρ c (Proc.devRef .tc main_arg6) = W1 m ρ c (Proc.devRef .tc main_arg6) :=
  W2_of_ne m ρ c main_arg6 (by decide)

theorem step2_arg7 (c : Dev nD) : W2 m ρ c (Proc.devRef .tc main_arg7) = W1 m ρ c (Proc.devRef .tc main_arg7) :=
  W2_of_ne m ρ c main_arg7 (by decide)

theorem step2_arg8 (c : Dev nD) : W2 m ρ c (Proc.devRef .tc main_arg8) = W1 m ρ c (Proc.devRef .tc main_arg8) :=
  W2_of_ne m ρ c main_arg8 (by decide)

theorem step2_arg9 (c : Dev nD) : W2 m ρ c (Proc.devRef .tc main_arg9) = W1 m ρ c (Proc.devRef .tc main_arg9) :=
  W2_of_ne m ρ c main_arg9 (by decide)

theorem step3_v35 (c : Dev nD) : W3 m ρ c (Proc.devRef .tc main_v35) = W2 m ρ c (Proc.devRef .tc main_v35) :=
  (StableHlo.after_of_forall_not_mem (b := Proc.devRef .tc main_v35) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_v11 (c : Dev nD) : W3 m ρ c (Proc.devRef .tc main_v11) = W2 m ρ c (Proc.devRef .tc main_v11) :=
  (StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_v21 (c : Dev nD) : W3 m ρ c (Proc.devRef .tc main_v21) = W2 m ρ c (Proc.devRef .tc main_v21) :=
  (StableHlo.after_of_forall_not_mem (b := Proc.devRef .tc main_v21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg1 (c : Dev nD) : W3 m ρ c (Proc.devRef .tc main_arg1) = W2 m ρ c (Proc.devRef .tc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg2 (c : Dev nD) : W3 m ρ c (Proc.devRef .tc main_arg2) = W2 m ρ c (Proc.devRef .tc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg5 (c : Dev nD) : W3 m ρ c (Proc.devRef .tc main_arg5) = W2 m ρ c (Proc.devRef .tc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg6 (c : Dev nD) : W3 m ρ c (Proc.devRef .tc main_arg6) = W2 m ρ c (Proc.devRef .tc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg8 (c : Dev nD) : W3 m ρ c (Proc.devRef .tc main_arg8) = W2 m ρ c (Proc.devRef .tc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step3_arg9 (c : Dev nD) : W3 m ρ c (Proc.devRef .tc main_arg9) = W2 m ρ c (Proc.devRef .tc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- After the first region its output array is the reference's first hidden state. -/
theorem w2_v35 (c : Dev nD) : W2 m ρ c (Proc.devRef .tc main_v35) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ((ConvReluBlocks.final4 (V1 m ρ) c).trans ?_)
  rw [show V1 m ρ c main_v33 = _ from w1_v33 m ρ c, show V1 m ρ c main_v11 = _ from w1_v11 m ρ c,
    show V1 m ρ c main_arg3 = _ from step1_arg3 m ρ c, show V1 m ρ c main_v34 = _ from w1_v34 m ρ c]
  exact Cert.RefLayers.layer1 _ _ _ _ _ _ _ (fun p => shapeCast_col_apply _ _ p) (fun q => shapeCast_row_apply _ _ q)

theorem w2_arg1 (c : Dev nD) : W2 m ρ c (Proc.devRef .tc main_arg1) = (m ((c : Thread nD τ).loc main_arg1)) := (step2_arg1 m ρ c).trans (step1_arg1 m ρ c)
theorem w2_arg2 (c : Dev nD) : W2 m ρ c (Proc.devRef .tc main_arg2) = (m ((c : Thread nD τ).loc main_arg2)) := (step2_arg2 m ρ c).trans (step1_arg2 m ρ c)
theorem w2_arg7 (c : Dev nD) : W2 m ρ c (Proc.devRef .tc main_arg7) = (m ((c : Thread nD τ).loc main_arg7)) := (step2_arg7 m ρ c).trans (step1_arg7 m ρ c)

/-- The second aggregate, as the host computes it from the first region's output, is the reference's. -/
theorem w3_v45 (c : Dev nD) : W3 m ρ c (Proc.devRef .tc main_v45) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W3 m ρ c (Proc.devRef .tc main_v45) = agg (W2 m ρ c (Proc.devRef .tc main_arg1)) (W2 m ρ c (Proc.devRef .tc main_arg2)) (W2 m ρ c (Proc.devRef .tc main_v35)) := by
    show StableHlo.after hostOps1 (W2 m ρ c) (Proc.devRef .tc main_v45) = _
    after_results_simp
    rfl
  rw [e, w2_arg1, w2_arg2, w2_v35, ← v45_agg]

/-- The second bias row is the bias vector recast to a row. -/
theorem w3_v46 (c : Dev nD) : W3 m ρ c (Proc.devRef .tc main_v46) = (shapeCast S1x128 (m ((c : Thread nD τ).loc main_arg7)) shapeCasts_S128_S1x128) := by
  have e : W3 m ρ c (Proc.devRef .tc main_v46) = shapeCast S1x128 (W2 m ρ c (Proc.devRef .tc main_arg7)) shapeCasts_S128_S1x128 := by
    show StableHlo.after hostOps1 (W2 m ρ c) (Proc.devRef .tc main_v46) = _
    after_results_simp
    rfl
  rw [e, w2_arg7]

theorem w3_v35 (c : Dev nD) : W3 m ρ c (Proc.devRef .tc main_v35) = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (step3_v35 m ρ c).trans (w2_v35 m ρ c)
theorem w3_v11 (c : Dev nD) : W3 m ρ c (Proc.devRef .tc main_v11) = (shapeCast S100000x1 (Cert.ReferenceIdeal.Read.val_main_v10 (F := Ideal) (m ((c : Thread nD τ).loc main_arg2))) shapeCasts_S100000_S100000x1) := (step3_v11 m ρ c).trans ((step2_v11 m ρ c).trans (w1_v11 m ρ c))
theorem w3_v21 (c : Dev nD) : W3 m ρ c (Proc.devRef .tc main_v21) = (shapeCast S100000x1 (Host.divf (F := Ideal) (φ := .f32) (Cert.ReferenceIdeal.Read.val_main_v46 (F := Ideal)) (Cert.ReferenceIdeal.Read.val_main_v47 (F := Ideal) (m ((c : Thread nD τ).loc main_arg2)))) shapeCasts_S100000_S100000x1) := (step3_v21 m ρ c).trans ((step2_v21 m ρ c).trans (w1_v21 m ρ c))
theorem w3_arg1 (c : Dev nD) : W3 m ρ c (Proc.devRef .tc main_arg1) = (m ((c : Thread nD τ).loc main_arg1)) := (step3_arg1 m ρ c).trans (w2_arg1 m ρ c)
theorem w3_arg2 (c : Dev nD) : W3 m ρ c (Proc.devRef .tc main_arg2) = (m ((c : Thread nD τ).loc main_arg2)) := (step3_arg2 m ρ c).trans (w2_arg2 m ρ c)
theorem w3_arg5 (c : Dev nD) : W3 m ρ c (Proc.devRef .tc main_arg5) = (m ((c : Thread nD τ).loc main_arg5)) := (step3_arg5 m ρ c).trans ((step2_arg5 m ρ c).trans (step1_arg5 m ρ c))
theorem w3_arg6 (c : Dev nD) : W3 m ρ c (Proc.devRef .tc main_arg6) = (m ((c : Thread nD τ).loc main_arg6)) := (step3_arg6 m ρ c).trans ((step2_arg6 m ρ c).trans (step1_arg6 m ρ c))
theorem w3_arg8 (c : Dev nD) : W3 m ρ c (Proc.devRef .tc main_arg8) = (m ((c : Thread nD τ).loc main_arg8)) := (step3_arg8 m ρ c).trans ((step2_arg8 m ρ c).trans (step1_arg8 m ρ c))
theorem w3_arg9 (c : Dev nD) : W3 m ρ c (Proc.devRef .tc main_arg9) = (m ((c : Thread nD τ).loc main_arg9)) := (step3_arg9 m ρ c).trans ((step2_arg9 m ρ c).trans (step1_arg9 m ρ c))

end Cert.KernelIdeal.Boundaries

end
-- ==== Proof.SageBlocks.lean ====
/-
  The second layer's dense map, from row blocks to whole arrays.

  The region walks the 100000 nodes in 20 blocks of 5000 rows. At block t it reads rows 5000 t … 5000 t + 4999 of the
  node features x, of their aggregate g, of the reciprocal-degree column r and of the normaliser column s, the two whole
  128 x 128 weight matrices and the whole bias row, and writes the same rows of two arrays:
  max ((sum_k x[p,k] Ws[k,q] + sum_k (g[p,k] r[p]) Wn[k,q]) + b[q]) 0 and that value times s[p]. Row p of each result
  depends only on row p of the row-blocked operands, so every block is the restriction of one whole-array function, and
  the 20 blocks tile the arrays.
-/
import proofs.«111396_j42992622633741_2_alg».proof.Proof.Gen.KernelIdeal.Frame
import proofs.«111396_j42992622633741_2_alg».proof.Proof.Layers
import proofs.«111396_j42992622633741_2_alg».proof.Proof.LibColumn
import proofs.«111396_j42992622633741_2_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SageBlocks

open Cert.KernelIdeal Cert.KernelIdeal.Gen Cert.Layers Cert.LibColumn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Both products contract the left operand's feature axis with a weight matrix's rows. -/
theorem rbc : Idealize.ShloMosaic.MatmulRead.RowsByCols dot_S5000x128_S128x128_S5000x128_1_0_0_1_n_n := ⟨rfl, rfl, rfl, rfl, rfl, rfl⟩

/-- The body's first stored value at an entry: the self product plus the mean-of-neighbours product, plus the bias,
    clamped at zero. -/
theorem pay_sage (x0 x1 : Vec Ideal S5000x128 .f32) (x2 : Vec Ideal S5000x1 .f32) (x4 x6 : Vec Ideal S128x128 .f32) (x5 : Vec Ideal S1x128 .f32)
    (r : Fin 5000) (q : Fin 128) :
    k1_pay1 x0 x1 x2 x4 x6 x5 (ix2 r q)
      = max (((∑ k : Fin 128, x0 (ix2 r k) * x4 (ix2 k q)) + (∑ k : Fin 128, (x1 (ix2 r k) * x2 (ix2 r 0)) * x6 (ix2 k q))) + x5 (ix2 0 q)) zw := by
  unfold k1_pay1
  simp only [shapeCast_self]
  show max ((FloatOps.matmul (F := Ideal) dot_S5000x128_S128x128_S5000x128_1_0_0_1_n_n (some .fp32) x0 x4 (constant (F := Ideal) S5000x128 .f32 0x00000000#32) (ix2 r q)
      + FloatOps.matmul (F := Ideal) dot_S5000x128_S128x128_S5000x128_1_0_0_1_n_n (some .fp32) (mulf x1 (broadcastTo S5000x128 x2 broadcasts_S5000x1_S5000x128)) x6
          (constant (F := Ideal) S5000x128 .f32 0x00000000#32) (ix2 r q))
      + broadcastTo S5000x128 x5 broadcasts_S1x128_S5000x128 (ix2 r q)) zw = _
  rw [Idealize.ShloMosaic.MatmulRead.matmul_zero_ix2 rbc rfl rfl, Idealize.ShloMosaic.MatmulRead.matmul_zero_ix2 rbc rfl rfl, broadcastTo_row_apply]
  simp only [mulf_apply, broadcastTo_col_apply]

/-- The body's second stored value at an entry: the first one times the row's normaliser. -/
theorem pay_sage_scaled (x0 x1 : Vec Ideal S5000x128 .f32) (x2 : Vec Ideal S5000x1 .f32) (x4 x6 : Vec Ideal S128x128 .f32) (x5 : Vec Ideal S1x128 .f32)
    (x3 : Vec Ideal S5000x1 .f32) (r : Fin 5000) (q : Fin 128) :
    k1_pay2 x0 x1 x2 x4 x6 x5 x3 (ix2 r q)
      = (max (((∑ k : Fin 128, x0 (ix2 r k) * x4 (ix2 k q)) + (∑ k : Fin 128, (x1 (ix2 r k) * x2 (ix2 r 0)) * x6 (ix2 k q))) + x5 (ix2 0 q)) zw) * x3 (ix2 r 0) := by
  unfold k1_pay2
  simp only [shapeCast_self]
  show k1_pay1 x0 x1 x2 x4 x6 x5 (ix2 r q) * broadcastTo S5000x128 x3 broadcasts_S5000x1_S5000x128 (ix2 r q) = _
  rw [broadcastTo_col_apply, pay_sage]

/-- The printed index maps, decided over the grid: a row-blocked window's block at point t starts at row block t, a whole
    window's at the origin; every column block is 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

set_option maxHeartbeats 4000000 in
/-- What point t writes back to the first output is block t of the layer's dense map, as a function of the arrays the
    region found. -/
theorem flushed7_eq (c : Dev nD) (t : Fin cfg1.N) :
    (dat1 V c).flushed 7 t = ((cfg1.win 7).blk t).view.read (Elt Ideal) (sageRelu (V c main_v35) (V c main_v45) (V c main_v21) (V c main_arg5) (V c main_v46) (V c main_arg6)) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz, View.ld_unit_zero (S := S128x128) hz, View.ld_unit_zero (S := S1x128) hz]
  obtain ⟨e00, e01, e10, e11, e20, e21, e30, e31, e40, e41, e50, e51, e60, e61, e70, e71, e80, e81⟩ := idx_facts t
  have ht : t.val < 20 := by have h := t.isLt; have hN : cfg1.N = 20 := N_1; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg1.win 0).blk t).view.emb (ix2 r x) = (ix2 (⟨t.val * 5000 + r.val, by omega⟩ : Fin 100000) x : S100000x128.Idx) := fun x => by
    funext a; apply Fin.ext
    match a with
    | ⟨0, _⟩ => show win1_0.index t (0 : Fin 2) * 5000 + 1 * r.val = t.val * 5000 + r.val; omega
    | ⟨1, _⟩ => show win1_0.index t (1 : Fin 2) * 128 + 1 * x.val = x.val; omega
  have h1 : ∀ (x : Fin 128), ((cfg1.win 1).blk t).view.emb (ix2 r x) = (ix2 (⟨t.val * 5000 + r.val, by omega⟩ : Fin 100000) x : S100000x128.Idx) := fun x => by
    funext a; apply Fin.ext
    match a with
    | ⟨0, _⟩ => show win1_1.index t (0 : Fin 2) * 5000 + 1 * r.val = t.val * 5000 + r.val; omega
    | ⟨1, _⟩ => show win1_1.index t (1 : Fin 2) * 128 + 1 * x.val = x.val; omega
  have h2 : ∀ (x : Fin 1), ((cfg1.win 2).blk t).view.emb (ix2 r x) = (ix2 (⟨t.val * 5000 + r.val, by omega⟩ : Fin 100000) x : S100000x1.Idx) := fun x => by
    funext a; apply Fin.ext
    match a with
    | ⟨0, _⟩ => show win1_2.index t (0 : Fin 2) * 5000 + 1 * r.val = t.val * 5000 + r.val; omega
    | ⟨1, _⟩ => show win1_2.index t (1 : Fin 2) * 1 + 1 * x.val = x.val; omega
  have h4 : ∀ (u : Fin 128) (x : Fin 128), ((cfg1.win 4).blk t).view.emb (ix2 u x) = (ix2 u x : S128x128.Idx) := fun u x => by
    funext a; apply Fin.ext
    match a with
    | ⟨0, _⟩ => show win1_4.index t (0 : Fin 2) * 128 + 1 * u.val = u.val; omega
    | ⟨1, _⟩ => show win1_4.index t (1 : Fin 2) * 128 + 1 * x.val = x.val; omega
  have h5 : ∀ (u : Fin 1) (x : Fin 128), ((cfg1.win 5).blk t).view.emb (ix2 u x) = (ix2 u x : S1x128.Idx) := fun u x => by
    funext a; apply Fin.ext
    match a with
    | ⟨0, _⟩ => show win1_5.index t (0 : Fin 2) * 1 + 1 * u.val = u.val; omega
    | ⟨1, _⟩ => show win1_5.index t (1 : Fin 2) * 128 + 1 * x.val = x.val; omega
  have h6 : ∀ (u : Fin 128) (x : Fin 128), ((cfg1.win 6).blk t).view.emb (ix2 u x) = (ix2 u x : S128x128.Idx) := fun u x => by
    funext a; apply Fin.ext
    match a with
    | ⟨0, _⟩ => show win1_6.index t (0 : Fin 2) * 128 + 1 * u.val = u.val; omega
    | ⟨1, _⟩ => show win1_6.index t (1 : Fin 2) * 128 + 1 * x.val = x.val; omega
  have ho : ((cfg1.win 7).blk t).view.emb (ix2 r q) = (ix2 (⟨t.val * 5000 + r.val, by omega⟩ : Fin 100000) q : S100000x128.Idx) := by
    funext a; apply Fin.ext
    match a with
    | ⟨0, _⟩ => show win1_7.index t (0 : Fin 2) * 5000 + 1 * r.val = t.val * 5000 + r.val; omega
    | ⟨1, _⟩ => show win1_7.index t (1 : Fin 2) * 128 + 1 * q.val = q.val; omega
  refine (pay_sage _ _ _ _ _ _ r q).trans ?_
  show max (((∑ k : Fin 128, (id (V c main_v35) : Arr 100000 128) (((cfg1.win 0).blk t).view.emb (ix2 r k)) * (id (V c main_arg5) : Arr 128 128) (((cfg1.win 4).blk t).view.emb (ix2 k q))) + (∑ k : Fin 128, ((id (V c main_v45) : Arr 100000 128) (((cfg1.win 1).blk t).view.emb (ix2 r k)) * (id (V c main_v21) : Arr 100000 1) (((cfg1.win 2).blk t).view.emb (ix2 r 0))) * (id (V c main_arg6) : Arr 128 128) (((cfg1.win 6).blk t).view.emb (ix2 k q)))) + (id (V c main_v46) : Arr 1 128) (((cfg1.win 5).blk t).view.emb (ix2 0 q))) zw
    = (sageRelu (V c main_v35) (V c main_v45) (V c main_v21) (V c main_arg5) (V c main_v46) (V c main_arg6)) (((cfg1.win 7).blk t).view.emb (ix2 r q))
  simp only [h0, h1, h2, h4, h5, h6, ho]
  rfl

/-- An index of the array is in point t's block iff each coordinate is in the block's range on its axis. -/
theorem mem_blk7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v47_0).slice (win1_7.rect t)).set ↔ _
  rw [View.set_slice_whole, Rect.mem_set_unit]
  exact Iff.rfl

/-- The 20 row blocks tile the array: row i lies in block i / 5000. -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_7 _, ?_⟩
  rw [mem_blk7]
  obtain ⟨e00, e01, e10, e11, e20, e21, e30, e31, e40, e41, e50, e51, e60, e61, e70, e71, e80, e81⟩ := idx_facts ⟨(i 0).val / 5000, hlt⟩
  intro a
  match a with
  | ⟨0, _⟩ => show win1_7.index _ (0 : Fin 2) * 5000 ≤ (i 0).val ∧ (i 0).val < win1_7.index _ (0 : Fin 2) * 5000 + 5000; rw [e70]; show (i 0).val / 5000 * 5000 ≤ (i 0).val ∧ (i 0).val < (i 0).val / 5000 * 5000 + 5000; omega
  | ⟨1, _⟩ => show win1_7.index _ (1 : Fin 2) * 128 ≤ (i 1).val ∧ (i 1).val < win1_7.index _ (1 : Fin 2) * 128 + 128; rw [e71]; omega

set_option maxHeartbeats 4000000 in
/-- After the region the first output array is the layer's dense map of the arrays the region found. -/
theorem final7 (c : Dev nD) : (dat1 V c).arrAt 7 cfg1.N = sageRelu (V c main_v35) (V c main_v45) (V c main_v21) (V c main_arg5) (V c main_v46) (V c main_arg6) :=
  (dat1 V c).arrAt_eq_of_cover 7 _ (fun t _ => flushed7_eq V c t) cover7

set_option maxHeartbeats 4000000 in
/-- What point t writes back to the second output is block t of that map scaled row by row by the normaliser. -/
theorem flushed8_eq (c : Dev nD) (t : Fin cfg1.N) :
    (dat1 V c).flushed 8 t = ((cfg1.win 8).blk t).view.read (Elt Ideal) (rowScale (sageRelu (V c main_v35) (V c main_v45) (V c main_v21) (V c main_arg5) (V c main_v46) (V c main_arg6)) (V c main_v11)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz, View.ld_unit_zero (S := S1x128) hz]
  obtain ⟨e00, e01, e10, e11, e20, e21, e30, e31, e40, e41, e50, e51, e60, e61, e70, e71, e80, e81⟩ := idx_facts t
  have ht : t.val < 20 := by have h := t.isLt; have hN : cfg1.N = 20 := N_1; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg1.win 0).blk t).view.emb (ix2 r x) = (ix2 (⟨t.val * 5000 + r.val, by omega⟩ : Fin 100000) x : S100000x128.Idx) := fun x => by
    funext a; apply Fin.ext
    match a with
    | ⟨0, _⟩ => show win1_0.index t (0 : Fin 2) * 5000 + 1 * r.val = t.val * 5000 + r.val; omega
    | ⟨1, _⟩ => show win1_0.index t (1 : Fin 2) * 128 + 1 * x.val = x.val; omega
  have h1 : ∀ (x : Fin 128), ((cfg1.win 1).blk t).view.emb (ix2 r x) = (ix2 (⟨t.val * 5000 + r.val, by omega⟩ : Fin 100000) x : S100000x128.Idx) := fun x => by
    funext a; apply Fin.ext
    match a with
    | ⟨0, _⟩ => show win1_1.index t (0 : Fin 2) * 5000 + 1 * r.val = t.val * 5000 + r.val; omega
    | ⟨1, _⟩ => show win1_1.index t (1 : Fin 2) * 128 + 1 * x.val = x.val; omega
  have h2 : ∀ (x : Fin 1), ((cfg1.win 2).blk t).view.emb (ix2 r x) = (ix2 (⟨t.val * 5000 + r.val, by omega⟩ : Fin 100000) x : S100000x1.Idx) := fun x => by
    funext a; apply Fin.ext
    match a with
    | ⟨0, _⟩ => show win1_2.index t (0 : Fin 2) * 5000 + 1 * r.val = t.val * 5000 + r.val; omega
    | ⟨1, _⟩ => show win1_2.index t (1 : Fin 2) * 1 + 1 * x.val = x.val; omega
  have h3 : ∀ (x : Fin 1), ((cfg1.win 3).blk t).view.emb (ix2 r x) = (ix2 (⟨t.val * 5000 + r.val, by omega⟩ : Fin 100000) x : S100000x1.Idx) := fun x => by
    funext a; apply Fin.ext
    match a with
    | ⟨0, _⟩ => show win1_3.index t (0 : Fin 2) * 5000 + 1 * r.val = t.val * 5000 + r.val; omega
    | ⟨1, _⟩ => show win1_3.index t (1 : Fin 2) * 1 + 1 * x.val = x.val; omega
  have h4 : ∀ (u : Fin 128) (x : Fin 128), ((cfg1.win 4).blk t).view.emb (ix2 u x) = (ix2 u x : S128x128.Idx) := fun u x => by
    funext a; apply Fin.ext
    match a with
    | ⟨0, _⟩ => show win1_4.index t (0 : Fin 2) * 128 + 1 * u.val = u.val; omega
    | ⟨1, _⟩ => show win1_4.index t (1 : Fin 2) * 128 + 1 * x.val = x.val; omega
  have h5 : ∀ (u : Fin 1) (x : Fin 128), ((cfg1.win 5).blk t).view.emb (ix2 u x) = (ix2 u x : S1x128.Idx) := fun u x => by
    funext a; apply Fin.ext
    match a with
    | ⟨0, _⟩ => show win1_5.index t (0 : Fin 2) * 1 + 1 * u.val = u.val; omega
    | ⟨1, _⟩ => show win1_5.index t (1 : Fin 2) * 128 + 1 * x.val = x.val; omega
  have h6 : ∀ (u : Fin 128) (x : Fin 128), ((cfg1.win 6).blk t).view.emb (ix2 u x) = (ix2 u x : S128x128.Idx) := fun u x => by
    funext a; apply Fin.ext
    match a with
    | ⟨0, _⟩ => show win1_6.index t (0 : Fin 2) * 128 + 1 * u.val = u.val; omega
    | ⟨1, _⟩ => show win1_6.index t (1 : Fin 2) * 128 + 1 * x.val = x.val; omega
  have ho : ((cfg1.win 8).blk t).view.emb (ix2 r q) = (ix2 (⟨t.val * 5000 + r.val, by omega⟩ : Fin 100000) q : S100000x128.Idx) := by
    funext a; apply Fin.ext
    match a with
    | ⟨0, _⟩ => show win1_8.index t (0 : Fin 2) * 5000 + 1 * r.val = t.val * 5000 + r.val; omega
    | ⟨1, _⟩ => show win1_8.index t (1 : Fin 2) * 128 + 1 * q.val = q.val; omega
  refine (pay_sage_scaled _ _ _ _ _ _ _ r q).trans ?_
  show (max (((∑ k : Fin 128, (id (V c main_v35) : Arr 100000 128) (((cfg1.win 0).blk t).view.emb (ix2 r k)) * (id (V c main_arg5) : Arr 128 128) (((cfg1.win 4).blk t).view.emb (ix2 k q))) + (∑ k : Fin 128, ((id (V c main_v45) : Arr 100000 128) (((cfg1.win 1).blk t).view.emb (ix2 r k)) * (id (V c main_v21) : Arr 100000 1) (((cfg1.win 2).blk t).view.emb (ix2 r 0))) * (id (V c main_arg6) : Arr 128 128) (((cfg1.win 6).blk t).view.emb (ix2 k q)))) + (id (V c main_v46) : Arr 1 128) (((cfg1.win 5).blk t).view.emb (ix2 0 q))) zw) * (id (V c main_v11) : Arr 100000 1) (((cfg1.win 3).blk t).view.emb (ix2 r 0))
    = (rowScale (sageRelu (V c main_v35) (V c main_v45) (V c main_v21) (V c main_arg5) (V c main_v46) (V c main_arg6)) (V c main_v11)) (((cfg1.win 8).blk t).view.emb (ix2 r q))
  simp only [h0, h1, h2, h3, h4, h5, h6, ho]
  rfl

/-- An index of the array is in point t's block iff each coordinate is in the block's range on its axis. -/
theorem mem_blk8 (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v47_1).slice (win1_8.rect t)).set ↔ _
  rw [View.set_slice_whole, Rect.mem_set_unit]
  exact Iff.rfl

/-- The 20 row blocks tile the array: row i lies in block i / 5000. -/
theorem cover8 (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_8 _, ?_⟩
  rw [mem_blk8]
  obtain ⟨e00, e01, e10, e11, e20, e21, e30, e31, e40, e41, e50, e51, e60, e61, e70, e71, e80, e81⟩ := idx_facts ⟨(i 0).val / 5000, hlt⟩
  intro a
  match a with
  | ⟨0, _⟩ => show win1_8.index _ (0 : Fin 2) * 5000 ≤ (i 0).val ∧ (i 0).val < win1_8.index _ (0 : Fin 2) * 5000 + 5000; rw [e80]; show (i 0).val / 5000 * 5000 ≤ (i 0).val ∧ (i 0).val < (i 0).val / 5000 * 5000 + 5000; omega
  | ⟨1, _⟩ => show win1_8.index _ (1 : Fin 2) * 128 ≤ (i 1).val ∧ (i 1).val < win1_8.index _ (1 : Fin 2) * 128 + 128; rw [e81]; omega

set_option maxHeartbeats 4000000 in
/-- After the region the second output array is the first one scaled row by row by the normaliser. -/
theorem final8 (c : Dev nD) : (dat1 V c).arrAt 8 cfg1.N = rowScale (sageRelu (V c main_v35) (V c main_v45) (V c main_v21) (V c main_arg5) (V c main_v46) (V c main_arg6)) (V c main_v11) :=
  (dat1 V c).arrAt_eq_of_cover 8 _ (fun t _ => flushed8_eq V c t) cover8

end Cert.KernelIdeal.SageBlocks

end
-- ==== Proof.RefPointwise.lean ====
/-
  The reference program's pointwise Chebyshev stages, read entry by entry, are the pointwise layer maps.

  After the second layer the reference scales rows by the in-normaliser s, negates, scales again, and forms
  (-2) * (g * s) - T0. Each of these stages at node p and feature q is one product, difference or negation of the same
  entry of its operands and the normaliser of node p, which is how the layer maps of Layers.lean are written (with the
  normaliser held as a 100000 x 1 column). The only law used: zero minus a value is its negation.
-/
import proofs.«111396_j42992622633741_2_alg».proof.Proof.Gen.ReferenceIdeal.Read
import proofs.«111396_j42992622633741_2_alg».proof.Proof.Layers
import Idealize.ShloMosaic.Lib.Pipeline.Value
import Idealize.ShloMosaic.Lib.ValueIdx
import Idealize.ShloMosaic.PureOps.Ideal.Laws

noncomputable section

namespace Cert.RefLayers

open Cert.ReferenceIdeal Cert.ReferenceIdeal.Read Cert.Layers Idealize.ShloMosaic Idealize.ShloMosaic.ValueIdx

variable (x0 : (⟨S100000x128, .f32⟩ : BufTy).Contents (Elt Ideal))
  (x1 x2 : (⟨S1600000, .i32⟩ : BufTy).Contents (Elt Ideal))
  (x3 : (⟨S128x128, .f32⟩ : BufTy).Contents (Elt Ideal))
  (x4 : (⟨S128, .f32⟩ : BufTy).Contents (Elt Ideal))
  (x5 x6 : (⟨S128x128, .f32⟩ : BufTy).Contents (Elt Ideal))
  (x7 : (⟨S128, .f32⟩ : BufTy).Contents (Elt Ideal))

/-- The in-normaliser spread across the features (stage 59), read at (p, q): the normaliser of node p. -/
private theorem v59_ix2 (p : Fin 100000) (q : Fin 128) :
    val_main_v59 (F := Ideal) x2 (ix2 p q) = val_main_v10 (F := Ideal) x2 (ix1 p) := by
  rw [val_main_v59_apply, val_main_v58_apply]
  exact congrArg (val_main_v10 (F := Ideal) x2) (funext fun a => Fin.ext (by match a with | ⟨0, _⟩ => rfl))

/-- The in-normaliser spread across the features (stage 71), read at (p, q): the normaliser of node p. -/
private theorem v71_ix2 (p : Fin 100000) (q : Fin 128) :
    val_main_v71 (F := Ideal) x2 (ix2 p q) = val_main_v10 (F := Ideal) x2 (ix1 p) := by
  rw [val_main_v71_apply, val_main_v58_apply]
  exact congrArg (val_main_v10 (F := Ideal) x2) (funext fun a => Fin.ext (by match a with | ⟨0, _⟩ => rfl))

/-- The in-normaliser spread across the features (stage 74), read at (p, q): the normaliser of node p. -/
private theorem v74_ix2 (p : Fin 100000) (q : Fin 128) :
    val_main_v74 (F := Ideal) x2 (ix2 p q) = val_main_v10 (F := Ideal) x2 (ix1 p) := by
  rw [val_main_v74_apply, val_main_v58_apply]
  exact congrArg (val_main_v10 (F := Ideal) x2) (funext fun a => Fin.ext (by match a with | ⟨0, _⟩ => rfl))

/-- The in-normaliser spread across the features (stage 86), read at (p, q): the normaliser of node p. -/
private theorem v86_ix2 (p : Fin 100000) (q : Fin 128) :
    val_main_v86 (F := Ideal) x2 (ix2 p q) = val_main_v10 (F := Ideal) x2 (ix1 p) := by
  rw [val_main_v86_apply, val_main_v58_apply]
  exact congrArg (val_main_v10 (F := Ideal) x2) (funext fun a => Fin.ext (by match a with | ⟨0, _⟩ => rfl))

/-- The second hidden state scaled row by row by the in-normaliser is the reference's input to its third aggregation. -/
theorem scaled0 (s : Arr 100000 1) (hs : ∀ p : Fin 100000, s (ix2 p 0) = val_main_v10 (F := Ideal) x2 (ix1 p)) :
    rowScale (val_main_v57 (F := Ideal) x0 x1 x2 x3 x4 x5 x6 x7) s = val_main_v60 (F := Ideal) x0 x1 x2 x3 x4 x5 x6 x7 := by
  funext j
  obtain ⟨p, q, rfl⟩ : ∃ (p : Fin 100000) (q : Fin 128), j = ix2 p q := ⟨j 0, j 1, eq_ix2 j⟩
  rw [rowScale_ix2, val_main_v60_apply, v59_ix2, hs, Ideal.mulf_def]

/-- Zero minus the normalised third aggregate is the reference's first Chebyshev term, which negates it. -/
theorem cheb1 (s : Arr 100000 1) (hs : ∀ p : Fin 100000, s (ix2 p 0) = val_main_v10 (F := Ideal) x2 (ix1 p)) :
    chebNeg (val_main_v70 (F := Ideal) x0 x1 x2 x3 x4 x5 x6 x7) s = val_main_v73 (F := Ideal) x0 x1 x2 x3 x4 x5 x6 x7 := by
  funext j
  obtain ⟨p, q, rfl⟩ : ∃ (p : Fin 100000) (q : Fin 128), j = ix2 p q := ⟨j 0, j 1, eq_ix2 j⟩
  rw [chebNeg_ix2, val_main_v73_apply, val_main_v72_apply, v71_ix2, hs, Ideal.mulf_def, Ideal.hostNegf_def, Ideal.negf_def]
  show Ideal.ofBits .f32 0x00000000#32 - _ = _
  rw [Ideal.ofBits_zero_f32, zero_sub]

/-- The first Chebyshev term scaled row by row by the in-normaliser is the reference's input to its fourth aggregation. -/
theorem scaled1 (s : Arr 100000 1) (hs : ∀ p : Fin 100000, s (ix2 p 0) = val_main_v10 (F := Ideal) x2 (ix1 p)) :
    rowScale (val_main_v73 (F := Ideal) x0 x1 x2 x3 x4 x5 x6 x7) s = val_main_v75 (F := Ideal) x0 x1 x2 x3 x4 x5 x6 x7 := by
  funext j
  obtain ⟨p, q, rfl⟩ : ∃ (p : Fin 100000) (q : Fin 128), j = ix2 p q := ⟨j 0, j 1, eq_ix2 j⟩
  rw [rowScale_ix2, val_main_v75_apply, v74_ix2, hs, Ideal.mulf_def]

/-- The minus-two word the recurrence multiplies by, as the reference broadcasts it. -/
private theorem v88_m2w (j : S100000x128.Idx) : val_main_v88 (F := Ideal) j = m2w := by
  rw [val_main_v88_apply, val_main_cst_18_apply]; rfl

/-- Minus twice the normalised fourth aggregate, minus the second hidden state, is the reference's second Chebyshev term. -/
theorem cheb2 (s : Arr 100000 1) (hs : ∀ p : Fin 100000, s (ix2 p 0) = val_main_v10 (F := Ideal) x2 (ix1 p)) :
    chebRec (val_main_v85 (F := Ideal) x0 x1 x2 x3 x4 x5 x6 x7) s (val_main_v57 (F := Ideal) x0 x1 x2 x3 x4 x5 x6 x7) = val_main_v90 (F := Ideal) x0 x1 x2 x3 x4 x5 x6 x7 := by
  funext j
  obtain ⟨p, q, rfl⟩ : ∃ (p : Fin 100000) (q : Fin 128), j = ix2 p q := ⟨j 0, j 1, eq_ix2 j⟩
  rw [chebRec_ix2, val_main_v90_apply, val_main_v89_apply, v88_m2w, val_main_v87_apply, v86_ix2, hs, Ideal.subf_def, Ideal.mulf_def,
    Ideal.mulf_def]

end Cert.RefLayers

end
-- ==== Proof.Boundary4.lean ====
/-
  The buffers after the second region and when the third is entered.

  The second region leaves the second layer's output — by its dense map and the reference's reading, the reference's
  second hidden state — and that state scaled row by row by the in-normaliser, which is what the reference feeds its
  third aggregation. The host then aggregates the scaled state over the edges: the reference's third aggregate.
-/
import proofs.«111396_j42992622633741_2_alg».proof.Proof.Boundary2
import proofs.«111396_j42992622633741_2_alg».proof.Proof.SageBlocks
import proofs.«111396_j42992622633741_2_alg».proof.Proof.RefLayers
import proofs.«111396_j42992622633741_2_alg».proof.Proof.RefPointwise

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem step4_v11 (c : Dev nD) : W4 m ρ c (Proc.devRef .tc main_v11) = W3 m ρ c (Proc.devRef .tc main_v11) :=
  (W4_arr m ρ c 3).trans (((dat1 (V3 m ρ) c).arrAt_in 3 rfl _).trans (A_eq1 (V3 m ρ) c 3))

theorem step4_arg1 (c : Dev nD) : W4 m ρ c (Proc.devRef .tc main_arg1) = W3 m ρ c (Proc.devRef .tc main_arg1) :=
  W4_of_ne m ρ c main_arg1 (by decide)

theorem step4_arg2 (c : Dev nD) : W4 m ρ c (Proc.devRef .tc main_arg2) = W3 m ρ c (Proc.devRef .tc main_arg2) :=
  W4_of_ne m ρ c main_arg2 (by decide)

theorem step4_arg8 (c : Dev nD) : W4 m ρ c (Proc.devRef .tc main_arg8) = W3 m ρ c (Proc.devRef .tc main_arg8) :=
  W4_of_ne m ρ c main_arg8 (by decide)

theorem step4_arg9 (c : Dev nD) : W4 m ρ c (Proc.devRef .tc main_arg9) = W3 m ρ c (Proc.devRef .tc main_arg9) :=
  W4_of_ne m ρ c main_arg9 (by decide)

theorem step5_v11 (c : Dev nD) : W5 m ρ c (Proc.devRef .tc main_v11) = W4 m ρ c (Proc.devRef .tc main_v11) :=
  (StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step5_v47_0 (c : Dev nD) : W5 m ρ c (Proc.devRef .tc main_v47_0) = W4 m ρ c (Proc.devRef .tc main_v47_0) :=
  (StableHlo.after_of_forall_not_mem (b := Proc.devRef .tc main_v47_0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step5_arg1 (c : Dev nD) : W5 m ρ c (Proc.devRef .tc main_arg1) = W4 m ρ c (Proc.devRef .tc main_arg1) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step5_arg2 (c : Dev nD) : W5 m ρ c (Proc.devRef .tc main_arg2) = W4 m ρ c (Proc.devRef .tc main_arg2) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step5_arg8 (c : Dev nD) : W5 m ρ c (Proc.devRef .tc main_arg8) = W4 m ρ c (Proc.devRef .tc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step5_arg9 (c : Dev nD) : W5 m ρ c (Proc.devRef .tc main_arg9) = W4 m ρ c (Proc.devRef .tc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The reciprocal-degree column at node p: one over the clamped degree of node p (the numerator is the host's
    all-ones vector, whose entries are the float word of one). -/
theorem recip_col (d : FVec Ideal S100000 .f32) (p : Fin 100000) :
    shapeCast S100000x1 (Host.divf (F := Ideal) (φ := .f32) (Cert.ReferenceIdeal.Read.val_main_v46 (F := Ideal)) d) shapeCasts_S100000_S100000x1 (ix2 p 0)
      = Ideal.div (Ideal.ofBits .f32 0x3F800000#32) (d (ix1 p)) := by
  rw [shapeCast_col_apply]
  show Ideal.div (Cert.ReferenceIdeal.Read.val_main_v46 (F := Ideal) (ix1 p)) (d (ix1 p)) = _
  rw [Cert.ReferenceIdeal.Read.val_main_v46_apply]
  rfl

/-- After the second region its first output array is the reference's second hidden state. -/
theorem w4_v47_0 (c : Dev nD) : W4 m ρ c (Proc.devRef .tc main_v47_0) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 7).trans ((SageBlocks.final7 (V3 m ρ) c).trans ?_)
  rw [show V3 m ρ c main_v35 = _ from w3_v35 m ρ c, show V3 m ρ c main_v45 = _ from w3_v45 m ρ c, show V3 m ρ c main_v21 = _ from w3_v21 m ρ c,
    show V3 m ρ c main_arg5 = _ from w3_arg5 m ρ c, show V3 m ρ c main_v46 = _ from w3_v46 m ρ c, show V3 m ρ c main_arg6 = _ from w3_arg6 m ρ c]
  exact Cert.RefLayers.layer2 _ _ _ _ _ _ _ _ _ _ (fun p => recip_col _ p) (fun q => shapeCast_row_apply _ _ q)

/-- Its second output array is that state scaled by the in-normaliser: the reference's input to the third aggregation. -/
theorem w4_v47_1 (c : Dev nD) : W4 m ρ c (Proc.devRef .tc main_v47_1) = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 8).trans ((SageBlocks.final8 (V3 m ρ) c).trans ?_)
  rw [show V3 m ρ c main_v35 = _ from w3_v35 m ρ c, show V3 m ρ c main_v45 = _ from w3_v45 m ρ c, show V3 m ρ c main_v21 = _ from w3_v21 m ρ c,
    show V3 m ρ c main_arg5 = _ from w3_arg5 m ρ c, show V3 m ρ c main_v46 = _ from w3_v46 m ρ c, show V3 m ρ c main_arg6 = _ from w3_arg6 m ρ c]
  rw [show V3 m ρ c main_v11 = _ from w3_v11 m ρ c]
  rw [Cert.RefLayers.layer2 _ _ _ _ _ _ _ _ _ _ (fun p => recip_col _ p) (fun q => shapeCast_row_apply _ _ q)]
  exact Cert.RefLayers.scaled0 _ _ _ _ _ _ _ _ _ (fun p => shapeCast_col_apply _ _ p)

theorem w4_arg1 (c : Dev nD) : W4 m ρ c (Proc.devRef .tc main_arg1) = (m ((c : Thread nD τ).loc main_arg1)) := (step4_arg1 m ρ c).trans (w3_arg1 m ρ c)
theorem w4_arg2 (c : Dev nD) : W4 m ρ c (Proc.devRef .tc main_arg2) = (m ((c : Thread nD τ).loc main_arg2)) := (step4_arg2 m ρ c).trans (w3_arg2 m ρ c)

/-- The third aggregate, as the host computes it from the second region's scaled output, is the reference's. -/
theorem w5_v57 (c : Dev nD) : W5 m ρ c (Proc.devRef .tc main_v57) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W5 m ρ c (Proc.devRef .tc main_v57) = agg (W4 m ρ c (Proc.devRef .tc main_arg1)) (W4 m ρ c (Proc.devRef .tc main_arg2)) (W4 m ρ c (Proc.devRef .tc main_v47_1)) := by
    show StableHlo.after hostOps2 (W4 m ρ c) (Proc.devRef .tc main_v57) = _
    after_results_simp
    rfl
  rw [e, w4_arg1, w4_arg2, w4_v47_1, ← v70_agg]

theorem w5_v11 (c : Dev nD) : W5 m ρ c (Proc.devRef .tc main_v11) = (shapeCast S100000x1 (Cert.ReferenceIdeal.Read.val_main_v10 (F := Ideal) (m ((c : Thread nD τ).loc main_arg2))) shapeCasts_S100000_S100000x1) := (step5_v11 m ρ c).trans ((step4_v11 m ρ c).trans (w3_v11 m ρ c))
theorem w5_v47_0 (c : Dev nD) : W5 m ρ c (Proc.devRef .tc main_v47_0) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step5_v47_0 m ρ c).trans (w4_v47_0 m ρ c)
theorem w5_arg1 (c : Dev nD) : W5 m ρ c (Proc.devRef .tc main_arg1) = (m ((c : Thread nD τ).loc main_arg1)) := (step5_arg1 m ρ c).trans (w4_arg1 m ρ c)
theorem w5_arg2 (c : Dev nD) : W5 m ρ c (Proc.devRef .tc main_arg2) = (m ((c : Thread nD τ).loc main_arg2)) := (step5_arg2 m ρ c).trans (w4_arg2 m ρ c)
theorem w5_arg8 (c : Dev nD) : W5 m ρ c (Proc.devRef .tc main_arg8) = (m ((c : Thread nD τ).loc main_arg8)) := (step5_arg8 m ρ c).trans ((step4_arg8 m ρ c).trans (w3_arg8 m ρ c))
theorem w5_arg9 (c : Dev nD) : W5 m ρ c (Proc.devRef .tc main_arg9) = (m ((c : Thread nD τ).loc main_arg9)) := (step5_arg9 m ρ c).trans ((step4_arg9 m ρ c).trans (w3_arg9 m ρ c))

end Cert.KernelIdeal.Boundaries

end
-- ==== Proof.ChebNegBlocks.lean ====
/-
  The first Chebyshev term, from row blocks to whole arrays.

  The region walks the 100000 nodes in 20 blocks of 5000 rows. At block t it reads rows 5000 t … 5000 t + 4999 of the
  aggregate g (all 128 features) and of the normaliser column s, and writes the same rows of two arrays:
  T1 = 0 - g * s (the negated, normalised aggregate) and T1 * s (its pre-scaling for the next aggregation). Each entry
  of a written block depends only on the same entry of g and on the row's scalar, so every block is the restriction of
  one whole-array function; the 20 blocks tile the arrays, so after the region the two arrays ARE those functions of
  the arrays the region found.
-/
import proofs.«111396_j42992622633741_2_alg».proof.Proof.Gen.KernelIdeal.Frame
import proofs.«111396_j42992622633741_2_alg».proof.Proof.Layers
import proofs.«111396_j42992622633741_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ChebNegBlocks

open Cert.KernelIdeal Cert.KernelIdeal.Gen Cert.Layers Cert.LibColumn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's first stored value at an entry: zero minus the aggregate's entry times the row's scalar. -/
theorem pay_neg (x0 : Vec Ideal S5000x128 .f32) (x1 : Vec Ideal S5000x1 .f32) (r : Fin 5000) (q : Fin 128) :
    k2_pay1 x0 x1 (ix2 r q) = zw - x0 (ix2 r q) * x1 (ix2 r 0) := by
  unfold k2_pay1
  simp only [shapeCast_self]
  show zw - x0 (ix2 r q) * broadcastTo S5000x128 x1 broadcasts_S5000x1_S5000x128 (ix2 r q) = _
  rw [broadcastTo_col_apply]

/-- The body's second stored value at an entry: the first one times the row's scalar again. -/
theorem pay_neg_scaled (x0 : Vec Ideal S5000x128 .f32) (x1 x2 : Vec Ideal S5000x1 .f32) (r : Fin 5000) (q : Fin 128) :
    k2_pay2 x0 x1 x2 (ix2 r q) = (zw - x0 (ix2 r q) * x1 (ix2 r 0)) * x2 (ix2 r 0) := by
  unfold k2_pay2
  simp only [shapeCast_self]
  show k2_pay1 x0 x1 (ix2 r q) * broadcastTo S5000x128 x2 broadcasts_S5000x1_S5000x128 (ix2 r q) = _
  rw [broadcastTo_col_apply, pay_neg]

/-- The printed index maps, decided over the grid: a row-blocked window's block at point t starts at row block t, a whole
    window's at the origin; every column block is 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back to the first output is block t of the negated, normalised aggregate, as a function of the
    arrays the region found. -/
theorem flushed2_eq (c : Dev nD) (t : Fin cfg2.N) :
    (dat2 V c).flushed 2 t = ((cfg2.win 2).blk t).view.read (Elt Ideal) (chebNeg (V c main_v57) (V c main_v11)) := by
  show (cfg2.win 2).cut (grid2.coords t) ((dat2 V c).after 2 t) = _
  rw [after2_2]
  unfold out2_2
  rw [View.canon_unit_zero hz]
  simp only [View.ld_unit_zero (S := S5000x128) hz, View.ld_unit_zero (S := S5000x1) hz]
  obtain ⟨e00, e01, e10, e11, e20, e21, e30, e31⟩ := idx_facts t
  have ht : t.val < 20 := by have h := t.isLt; have hN : cfg2.N = 20 := N_2; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg2.win 0).blk t).view.emb (ix2 r x) = (ix2 (⟨t.val * 5000 + r.val, by omega⟩ : Fin 100000) x : S100000x128.Idx) := fun x => by
    funext a; apply Fin.ext
    match a with
    | ⟨0, _⟩ => show win2_0.index t (0 : Fin 2) * 5000 + 1 * r.val = t.val * 5000 + r.val; omega
    | ⟨1, _⟩ => show win2_0.index t (1 : Fin 2) * 128 + 1 * x.val = x.val; omega
  have h1 : ∀ (x : Fin 1), ((cfg2.win 1).blk t).view.emb (ix2 r x) = (ix2 (⟨t.val * 5000 + r.val, by omega⟩ : Fin 100000) x : S100000x1.Idx) := fun x => by
    funext a; apply Fin.ext
    match a with
    | ⟨0, _⟩ => show win2_1.index t (0 : Fin 2) * 5000 + 1 * r.val = t.val * 5000 + r.val; omega
    | ⟨1, _⟩ => show win2_1.index t (1 : Fin 2) * 1 + 1 * x.val = x.val; omega
  have ho : ((cfg2.win 2).blk t).view.emb (ix2 r q) = (ix2 (⟨t.val * 5000 + r.val, by omega⟩ : Fin 100000) q : S100000x128.Idx) := by
    funext a; apply Fin.ext
    match a with
    | ⟨0, _⟩ => show win2_2.index t (0 : Fin 2) * 5000 + 1 * r.val = t.val * 5000 + r.val; omega
    | ⟨1, _⟩ => show win2_2.index t (1 : Fin 2) * 128 + 1 * q.val = q.val; omega
  refine (pay_neg _ _ r q).trans ?_
  show zw - (id (V c main_v57) : Arr 100000 128) (((cfg2.win 0).blk t).view.emb (ix2 r q)) * (id (V c main_v11) : Arr 100000 1) (((cfg2.win 1).blk t).view.emb (ix2 r 0))
    = (chebNeg (V c main_v57) (V c main_v11)) (((cfg2.win 2).blk t).view.emb (ix2 r q))
  simp only [h0, h1, ho]
  rfl

/-- An index of the array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v58_0).slice (win2_2.rect t)).set ↔ _
  rw [View.set_slice_whole, Rect.mem_set_unit]
  exact Iff.rfl

/-- The 20 row blocks tile the array: row i lies in block i / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have hlt : (i 0).val / 5000 < cfg2.N := by rw [hN]; omega
  refine ⟨⟨(i 0).val / 5000, hlt⟩, flush2_2 _, ?_⟩
  rw [mem_blk2]
  obtain ⟨e00, e01, e10, e11, e20, e21, e30, e31⟩ := idx_facts ⟨(i 0).val / 5000, hlt⟩
  intro a
  match a with
  | ⟨0, _⟩ => show win2_2.index _ (0 : Fin 2) * 5000 ≤ (i 0).val ∧ (i 0).val < win2_2.index _ (0 : Fin 2) * 5000 + 5000; rw [e20]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e21]; omega

/-- After the region the first output array is the negated, normalised aggregate of the arrays the region found. -/
theorem final2 (c : Dev nD) : (dat2 V c).arrAt 2 cfg2.N = chebNeg (V c main_v57) (V c main_v11) :=
  (dat2 V c).arrAt_eq_of_cover 2 _ (fun t _ => flushed2_eq V c t) cover2

/-- What point t writes back to the second output is block t of that term scaled row by row once more. -/
theorem flushed3_eq (c : Dev nD) (t : Fin cfg2.N) :
    (dat2 V c).flushed 3 t = ((cfg2.win 3).blk t).view.read (Elt Ideal) (rowScale (chebNeg (V c main_v57) (V c main_v11)) (V c main_v11)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz]
  obtain ⟨e00, e01, e10, e11, e20, e21, e30, e31⟩ := idx_facts t
  have ht : t.val < 20 := by have h := t.isLt; have hN : cfg2.N = 20 := N_2; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg2.win 0).blk t).view.emb (ix2 r x) = (ix2 (⟨t.val * 5000 + r.val, by omega⟩ : Fin 100000) x : S100000x128.Idx) := fun x => by
    funext a; apply Fin.ext
    match a with
    | ⟨0, _⟩ => show win2_0.index t (0 : Fin 2) * 5000 + 1 * r.val = t.val * 5000 + r.val; omega
    | ⟨1, _⟩ => show win2_0.index t (1 : Fin 2) * 128 + 1 * x.val = x.val; omega
  have h1 : ∀ (x : Fin 1), ((cfg2.win 1).blk t).view.emb (ix2 r x) = (ix2 (⟨t.val * 5000 + r.val, by omega⟩ : Fin 100000) x : S100000x1.Idx) := fun x => by
    funext a; apply Fin.ext
    match a with
    | ⟨0, _⟩ => show win2_1.index t (0 : Fin 2) * 5000 + 1 * r.val = t.val * 5000 + r.val; omega
    | ⟨1, _⟩ => show win2_1.index t (1 : Fin 2) * 1 + 1 * x.val = x.val; omega
  have ho : ((cfg2.win 3).blk t).view.emb (ix2 r q) = (ix2 (⟨t.val * 5000 + r.val, by omega⟩ : Fin 100000) q : S100000x128.Idx) := by
    funext a; apply Fin.ext
    match a with
    | ⟨0, _⟩ => show win2_3.index t (0 : Fin 2) * 5000 + 1 * r.val = t.val * 5000 + r.val; omega
    | ⟨1, _⟩ => show win2_3.index t (1 : Fin 2) * 128 + 1 * q.val = q.val; omega
  refine (pay_neg_scaled _ _ _ r q).trans ?_
  show (zw - (id (V c main_v57) : Arr 100000 128) (((cfg2.win 0).blk t).view.emb (ix2 r q)) * (id (V c main_v11) : Arr 100000 1) (((cfg2.win 1).blk t).view.emb (ix2 r 0))) * (id (V c main_v11) : Arr 100000 1) (((cfg2.win 1).blk t).view.emb (ix2 r 0))
    = (rowScale (chebNeg (V c main_v57) (V c main_v11)) (V c main_v11)) (((cfg2.win 3).blk t).view.emb (ix2 r q))
  simp only [h0, h1, ho]
  rfl

/-- An index of the array is in point t's block iff each coordinate is in the block's range on its axis. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58_1).slice (win2_3.rect t)).set ↔ _
  rw [View.set_slice_whole, Rect.mem_set_unit]
  exact Iff.rfl

/-- The 20 row blocks tile the array: row i lies in block i / 5000. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have hlt : (i 0).val / 5000 < cfg2.N := by rw [hN]; omega
  refine ⟨⟨(i 0).val / 5000, hlt⟩, flush2_3 _, ?_⟩
  rw [mem_blk3]
  obtain ⟨e00, e01, e10, e11, e20, e21, e30, e31⟩ := idx_facts ⟨(i 0).val / 5000, hlt⟩
  intro a
  match a with
  | ⟨0, _⟩ => show win2_3.index _ (0 : Fin 2) * 5000 ≤ (i 0).val ∧ (i 0).val < win2_3.index _ (0 : Fin 2) * 5000 + 5000; rw [e30]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e31]; omega

/-- After the region the second output array is the first one scaled row by row by the normaliser. -/
theorem final3 (c : Dev nD) : (dat2 V c).arrAt 3 cfg2.N = rowScale (chebNeg (V c main_v57) (V c main_v11)) (V c main_v11) :=
  (dat2 V c).arrAt_eq_of_cover 3 _ (fun t _ => flushed3_eq V c t) cover3

end Cert.KernelIdeal.ChebNegBlocks

end
-- ==== Proof.Boundary6.lean ====
/-
  The buffers after the third region and when the fourth is entered.

  The third region leaves the first Chebyshev term — the reference's, since zero minus a value is its negation — and
  that term scaled by the in-normaliser, which the reference feeds its fourth aggregation. The host then aggregates the
  scaled term over the edges: the reference's fourth aggregate.
-/
import proofs.«111396_j42992622633741_2_alg».proof.Proof.Boundary4
import proofs.«111396_j42992622633741_2_alg».proof.Proof.ChebNegBlocks
import proofs.«111396_j42992622633741_2_alg».proof.Proof.RefLayers
import proofs.«111396_j42992622633741_2_alg».proof.Proof.RefPointwise

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem step6_v11 (c : Dev nD) : W6 m ρ c (Proc.devRef .tc main_v11) = W5 m ρ c (Proc.devRef .tc main_v11) :=
  (W6_arr m ρ c 1).trans (((dat2 (V5 m ρ) c).arrAt_in 1 rfl _).trans (A_eq2 (V5 m ρ) c 1))

theorem step6_v47_0 (c : Dev nD) : W6 m ρ c (Proc.devRef .tc main_v47_0) = W5 m ρ c (Proc.devRef .tc main_v47_0) :=
  W6_of_ne m ρ c main_v47_0 (by decide)

theorem step6_arg1 (c : Dev nD) : W6 m ρ c (Proc.devRef .tc main_arg1) = W5 m ρ c (Proc.devRef .tc main_arg1) :=
  W6_of_ne m ρ c main_arg1 (by decide)

theorem step6_arg2 (c : Dev nD) : W6 m ρ c (Proc.devRef .tc main_arg2) = W5 m ρ c (Proc.devRef .tc main_arg2) :=
  W6_of_ne m ρ c main_arg2 (by decide)

theorem step6_arg8 (c : Dev nD) : W6 m ρ c (Proc.devRef .tc main_arg8) = W5 m ρ c (Proc.devRef .tc main_arg8) :=
  W6_of_ne m ρ c main_arg8 (by decide)

theorem step6_arg9 (c : Dev nD) : W6 m ρ c (Proc.devRef .tc main_arg9) = W5 m ρ c (Proc.devRef .tc main_arg9) :=
  W6_of_ne m ρ c main_arg9 (by decide)

theorem step7_v11 (c : Dev nD) : W7 m ρ c (Proc.devRef .tc main_v11) = W6 m ρ c (Proc.devRef .tc main_v11) :=
  (StableHlo.after_of_forall_not_mem (b := Proc.devRef .tc main_v11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step7_v47_0 (c : Dev nD) : W7 m ρ c (Proc.devRef .tc main_v47_0) = W6 m ρ c (Proc.devRef .tc main_v47_0) :=
  (StableHlo.after_of_forall_not_mem (b := Proc.devRef .tc main_v47_0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step7_v58_0 (c : Dev nD) : W7 m ρ c (Proc.devRef .tc main_v58_0) = W6 m ρ c (Proc.devRef .tc main_v58_0) :=
  (StableHlo.after_of_forall_not_mem (b := Proc.devRef .tc main_v58_0) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step7_arg8 (c : Dev nD) : W7 m ρ c (Proc.devRef .tc main_arg8) = W6 m ρ c (Proc.devRef .tc main_arg8) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step7_arg9 (c : Dev nD) : W7 m ρ c (Proc.devRef .tc main_arg9) = W6 m ρ c (Proc.devRef .tc main_arg9) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- After the third region its first output array is the reference's first Chebyshev term. -/
theorem w6_v58_0 (c : Dev nD) : W6 m ρ c (Proc.devRef .tc main_v58_0) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 2).trans ((ChebNegBlocks.final2 (V5 m ρ) c).trans ?_)
  rw [show V5 m ρ c main_v57 = _ from w5_v57 m ρ c, show V5 m ρ c main_v11 = _ from w5_v11 m ρ c]
  exact Cert.RefLayers.cheb1 _ _ _ _ _ _ _ _ _ (fun p => shapeCast_col_apply _ _ p)

/-- Its second output array is that term scaled by the in-normaliser: the reference's input to the fourth aggregation. -/
theorem w6_v58_1 (c : Dev nD) : W6 m ρ c (Proc.devRef .tc main_v58_1) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ((ChebNegBlocks.final3 (V5 m ρ) c).trans ?_)
  rw [show V5 m ρ c main_v57 = _ from w5_v57 m ρ c, show V5 m ρ c main_v11 = _ from w5_v11 m ρ c]
  rw [Cert.RefLayers.cheb1 _ _ _ _ _ _ _ _ _ (fun p => shapeCast_col_apply _ _ p)]
  exact Cert.RefLayers.scaled1 _ _ _ _ _ _ _ _ _ (fun p => shapeCast_col_apply _ _ p)

theorem w6_arg1 (c : Dev nD) : W6 m ρ c (Proc.devRef .tc main_arg1) = (m ((c : Thread nD τ).loc main_arg1)) := (step6_arg1 m ρ c).trans (w5_arg1 m ρ c)
theorem w6_arg2 (c : Dev nD) : W6 m ρ c (Proc.devRef .tc main_arg2) = (m ((c : Thread nD τ).loc main_arg2)) := (step6_arg2 m ρ c).trans (w5_arg2 m ρ c)

/-- The fourth aggregate, as the host computes it from the third region's scaled output, is the reference's. -/
theorem w7_v68 (c : Dev nD) : W7 m ρ c (Proc.devRef .tc main_v68) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W7 m ρ c (Proc.devRef .tc main_v68) = agg (W6 m ρ c (Proc.devRef .tc main_arg1)) (W6 m ρ c (Proc.devRef .tc main_arg2)) (W6 m ρ c (Proc.devRef .tc main_v58_1)) := by
    show StableHlo.after hostOps3 (W6 m ρ c) (Proc.devRef .tc main_v68) = _
    after_results_simp
    rfl
  rw [e, w6_arg1, w6_arg2, w6_v58_1, ← v85_agg]

theorem w7_v11 (c : Dev nD) : W7 m ρ c (Proc.devRef .tc main_v11) = (shapeCast S100000x1 (Cert.ReferenceIdeal.Read.val_main_v10 (F := Ideal) (m ((c : Thread nD τ).loc main_arg2))) shapeCasts_S100000_S100000x1) := (step7_v11 m ρ c).trans ((step6_v11 m ρ c).trans (w5_v11 m ρ c))
theorem w7_v47_0 (c : Dev nD) : W7 m ρ c (Proc.devRef .tc main_v47_0) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step7_v47_0 m ρ c).trans ((step6_v47_0 m ρ c).trans (w5_v47_0 m ρ c))
theorem w7_v58_0 (c : Dev nD) : W7 m ρ c (Proc.devRef .tc main_v58_0) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step7_v58_0 m ρ c).trans (w6_v58_0 m ρ c)
theorem w7_arg8 (c : Dev nD) : W7 m ρ c (Proc.devRef .tc main_arg8) = (m ((c : Thread nD τ).loc main_arg8)) := (step7_arg8 m ρ c).trans ((step6_arg8 m ρ c).trans (w5_arg8 m ρ c))
theorem w7_arg9 (c : Dev nD) : W7 m ρ c (Proc.devRef .tc main_arg9) = (m ((c : Thread nD τ).loc main_arg9)) := (step7_arg9 m ρ c).trans ((step6_arg9 m ρ c).trans (w5_arg9 m ρ c))

end Cert.KernelIdeal.Boundaries

end
-- ==== Proof.ChebRecBlocks.lean ====
/-
  The Chebyshev recurrence term, from row blocks to the whole array.

  The region walks the 100000 nodes in 20 blocks of 5000 rows. At block t it reads rows 5000 t … 5000 t + 4999 of the
  aggregate g, of the normaliser column s and of the term T0 two steps back, and writes the same rows of
  T2 = (-2) * (g * s) - T0. Each written entry depends only on the same entry of g and T0 and on the row's scalar, so
  every block is the restriction of one whole-array function, and the 20 blocks tile the array.
-/
import proofs.«111396_j42992622633741_2_alg».proof.Proof.Gen.KernelIdeal.Frame
import proofs.«111396_j42992622633741_2_alg».proof.Proof.Layers
import proofs.«111396_j42992622633741_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ChebRecBlocks

open Cert.KernelIdeal Cert.KernelIdeal.Gen Cert.Layers Cert.LibColumn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's stored value at an entry: minus two times the aggregate's entry times the row's scalar, minus the older
    term's entry. -/
theorem pay_rec (x0 : Vec Ideal S5000x128 .f32) (x1 : Vec Ideal S5000x1 .f32) (x2 : Vec Ideal S5000x128 .f32) (r : Fin 5000) (q : Fin 128) :
    k3_pay1 x0 x1 x2 (ix2 r q) = m2w * (x0 (ix2 r q) * x1 (ix2 r 0)) - x2 (ix2 r q) := by
  unfold k3_pay1
  simp only [shapeCast_self]
  show m2w * (x0 (ix2 r q) * broadcastTo S5000x128 x1 broadcasts_S5000x1_S5000x128 (ix2 r q)) - x2 (ix2 r q) = _
  rw [broadcastTo_col_apply]

/-- The printed index maps, decided over the grid: a row-blocked window's block at point t starts at row block t, a whole
    window's at the origin; every column block is 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of the recurrence term, as a function of the arrays the region found. -/
theorem flushed3_eq (c : Dev nD) (t : Fin cfg3.N) :
    (dat3 V c).flushed 3 t = ((cfg3.win 3).blk t).view.read (Elt Ideal) (chebRec (V c main_v68) (V c main_v11) (V c main_v47_0)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz]
  obtain ⟨e00, e01, e10, e11, e20, e21, e30, e31⟩ := idx_facts t
  have ht : t.val < 20 := by have h := t.isLt; have hN : cfg3.N = 20 := N_3; omega
  funext y
  obtain ⟨r, q, rfl⟩ : ∃ (r : Fin 5000) (q : Fin 128), y = ix2 r q := ⟨y 0, y 1, eq_ix2 y⟩
  have hr : r.val < 5000 := r.isLt
  have h0 : ∀ (x : Fin 128), ((cfg3.win 0).blk t).view.emb (ix2 r x) = (ix2 (⟨t.val * 5000 + r.val, by omega⟩ : Fin 100000) x : S100000x128.Idx) := fun x => by
    funext a; apply Fin.ext
    match a with
    | ⟨0, _⟩ => show win3_0.index t (0 : Fin 2) * 5000 + 1 * r.val = t.val * 5000 + r.val; omega
    | ⟨1, _⟩ => show win3_0.index t (1 : Fin 2) * 128 + 1 * x.val = x.val; omega
  have h1 : ∀ (x : Fin 1), ((cfg3.win 1).blk t).view.emb (ix2 r x) = (ix2 (⟨t.val * 5000 + r.val, by omega⟩ : Fin 100000) x : S100000x1.Idx) := fun x => by
    funext a; apply Fin.ext
    match a with
    | ⟨0, _⟩ => show win3_1.index t (0 : Fin 2) * 5000 + 1 * r.val = t.val * 5000 + r.val; omega
    | ⟨1, _⟩ => show win3_1.index t (1 : Fin 2) * 1 + 1 * x.val = x.val; omega
  have h2 : ∀ (x : Fin 128), ((cfg3.win 2).blk t).view.emb (ix2 r x) = (ix2 (⟨t.val * 5000 + r.val, by omega⟩ : Fin 100000) x : S100000x128.Idx) := fun x => by
    funext a; apply Fin.ext
    match a with
    | ⟨0, _⟩ => show win3_2.index t (0 : Fin 2) * 5000 + 1 * r.val = t.val * 5000 + r.val; omega
    | ⟨1, _⟩ => show win3_2.index t (1 : Fin 2) * 128 + 1 * x.val = x.val; omega
  have ho : ((cfg3.win 3).blk t).view.emb (ix2 r q) = (ix2 (⟨t.val * 5000 + r.val, by omega⟩ : Fin 100000) q : S100000x128.Idx) := by
    funext a; apply Fin.ext
    match a with
    | ⟨0, _⟩ => show win3_3.index t (0 : Fin 2) * 5000 + 1 * r.val = t.val * 5000 + r.val; omega
    | ⟨1, _⟩ => show win3_3.index t (1 : Fin 2) * 128 + 1 * q.val = q.val; omega
  refine (pay_rec _ _ _ r q).trans ?_
  show m2w * ((id (V c main_v68) : Arr 100000 128) (((cfg3.win 0).blk t).view.emb (ix2 r q)) * (id (V c main_v11) : Arr 100000 1) (((cfg3.win 1).blk t).view.emb (ix2 r 0))) - (id (V c main_v47_0) : Arr 100000 128) (((cfg3.win 2).blk t).view.emb (ix2 r q))
    = (chebRec (V c main_v68) (V c main_v11) (V c main_v47_0)) (((cfg3.win 3).blk t).view.emb (ix2 r q))
  simp only [h0, h1, h2, ho]
  rfl

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v69).slice (win3_3.rect t)).set ↔ _
  rw [View.set_slice_whole, Rect.mem_set_unit]
  exact Iff.rfl

/-- The 20 row blocks tile the array: row i lies in block i / 5000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  have hlt : (i 0).val / 5000 < cfg3.N := by rw [hN]; omega
  refine ⟨⟨(i 0).val / 5000, hlt⟩, flush3_3 _, ?_⟩
  rw [mem_blk3]
  obtain ⟨e00, e01, e10, e11, e20, e21, e30, e31⟩ := idx_facts ⟨(i 0).val / 5000, hlt⟩
  intro a
  match a with
  | ⟨0, _⟩ => show win3_3.index _ (0 : Fin 2) * 5000 ≤ (i 0).val ∧ (i 0).val < win3_3.index _ (0 : Fin 2) * 5000 + 5000; rw [e30]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e31]; omega

/-- After the region the output array is the Chebyshev recurrence term of the arrays the region found. -/
theorem final3 (c : Dev nD) : (dat3 V c).arrAt 3 cfg3.N = chebRec (V c main_v68) (V c main_v11) (V c main_v47_0) :=
  (dat3 V c).arrAt_eq_of_cover 3 _ (fun t _ => flushed3_eq V c t) cover3

end Cert.KernelIdeal.ChebRecBlocks

end
-- ==== Proof.Boundary8.lean ====
/-
  The buffers after the fourth region and when the last is entered.

  The fourth region leaves the second Chebyshev term, the reference's by the same recurrence. The host then cuts the
  384 x 64 weight matrix into its three 128-row blocks and recasts the last bias to a row.
-/
import proofs.«111396_j42992622633741_2_alg».proof.Proof.Boundary6
import proofs.«111396_j42992622633741_2_alg».proof.Proof.ChebRecBlocks
import proofs.«111396_j42992622633741_2_alg».proof.Proof.RefLayers
import proofs.«111396_j42992622633741_2_alg».proof.Proof.RefPointwise

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

theorem step8_v47_0 (c : Dev nD) : W8 m ρ c (Proc.devRef .tc main_v47_0) = W7 m ρ c (Proc.devRef .tc main_v47_0) :=
  (W8_arr m ρ c 2).trans (((dat3 (V7 m ρ) c).arrAt_in 2 rfl _).trans (A_eq3 (V7 m ρ) c 2))

theorem step8_v58_0 (c : Dev nD) : W8 m ρ c (Proc.devRef .tc main_v58_0) = W7 m ρ c (Proc.devRef .tc main_v58_0) :=
  W8_of_ne m ρ c main_v58_0 (by decide)

theorem step8_arg8 (c : Dev nD) : W8 m ρ c (Proc.devRef .tc main_arg8) = W7 m ρ c (Proc.devRef .tc main_arg8) :=
  W8_of_ne m ρ c main_arg8 (by decide)

theorem step8_arg9 (c : Dev nD) : W8 m ρ c (Proc.devRef .tc main_arg9) = W7 m ρ c (Proc.devRef .tc main_arg9) :=
  W8_of_ne m ρ c main_arg9 (by decide)

theorem step9_v47_0 (c : Dev nD) : W9 m ρ c (Proc.devRef .tc main_v47_0) = W8 m ρ c (Proc.devRef .tc main_v47_0) :=
  (StableHlo.after_of_forall_not_mem (b := Proc.devRef .tc main_v47_0) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step9_v58_0 (c : Dev nD) : W9 m ρ c (Proc.devRef .tc main_v58_0) = W8 m ρ c (Proc.devRef .tc main_v58_0) :=
  (StableHlo.after_of_forall_not_mem (b := Proc.devRef .tc main_v58_0) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem step9_v69 (c : Dev nD) : W9 m ρ c (Proc.devRef .tc main_v69) = W8 m ρ c (Proc.devRef .tc main_v69) :=
  (StableHlo.after_of_forall_not_mem (b := Proc.devRef .tc main_v69) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- After the fourth region its output array is the reference's second Chebyshev term. -/
theorem w8_v69 (c : Dev nD) : W8 m ρ c (Proc.devRef .tc main_v69) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((ChebRecBlocks.final3 (V7 m ρ) c).trans ?_)
  rw [show V7 m ρ c main_v68 = _ from w7_v68 m ρ c, show V7 m ρ c main_v11 = _ from w7_v11 m ρ c, show V7 m ρ c main_v47_0 = _ from w7_v47_0 m ρ c]
  exact Cert.RefLayers.cheb2 _ _ _ _ _ _ _ _ _ (fun p => shapeCast_col_apply _ _ p)

theorem w8_arg8 (c : Dev nD) : W8 m ρ c (Proc.devRef .tc main_arg8) = (m ((c : Thread nD τ).loc main_arg8)) := (step8_arg8 m ρ c).trans (w7_arg8 m ρ c)
theorem w8_arg9 (c : Dev nD) : W8 m ρ c (Proc.devRef .tc main_arg9) = (m ((c : Thread nD τ).loc main_arg9)) := (step8_arg9 m ρ c).trans (w7_arg9 m ρ c)

/-- The three blocks of the weight matrix and the bias row, as the host cuts and recasts them. -/
theorem w9_v70 (c : Dev nD) : W9 m ρ c (Proc.devRef .tc main_v70) = extractStridedSlice S128x64 ![0, 0] (m ((c : Thread nD τ).loc main_arg8)) slices_S384x64_S128x64_0_0 := by
  have e : W9 m ρ c (Proc.devRef .tc main_v70) = extractStridedSlice S128x64 ![0, 0] (W8 m ρ c (Proc.devRef .tc main_arg8)) slices_S384x64_S128x64_0_0 := by
    show StableHlo.after hostOps4 (W8 m ρ c) (Proc.devRef .tc main_v70) = _
    after_results_simp
  rw [e, w8_arg8]
theorem w9_v71 (c : Dev nD) : W9 m ρ c (Proc.devRef .tc main_v71) = extractStridedSlice S128x64 ![128, 0] (m ((c : Thread nD τ).loc main_arg8)) slices_S384x64_S128x64_128_0 := by
  have e : W9 m ρ c (Proc.devRef .tc main_v71) = extractStridedSlice S128x64 ![128, 0] (W8 m ρ c (Proc.devRef .tc main_arg8)) slices_S384x64_S128x64_128_0 := by
    show StableHlo.after hostOps4 (W8 m ρ c) (Proc.devRef .tc main_v71) = _
    after_results_simp
  rw [e, w8_arg8]
theorem w9_v72 (c : Dev nD) : W9 m ρ c (Proc.devRef .tc main_v72) = extractStridedSlice S128x64 ![256, 0] (m ((c : Thread nD τ).loc main_arg8)) slices_S384x64_S128x64_256_0 := by
  have e : W9 m ρ c (Proc.devRef .tc main_v72) = extractStridedSlice S128x64 ![256, 0] (W8 m ρ c (Proc.devRef .tc main_arg8)) slices_S384x64_S128x64_256_0 := by
    show StableHlo.after hostOps4 (W8 m ρ c) (Proc.devRef .tc main_v72) = _
    after_results_simp
  rw [e, w8_arg8]
theorem w9_v73 (c : Dev nD) : W9 m ρ c (Proc.devRef .tc main_v73) = shapeCast S1x64 (m ((c : Thread nD τ).loc main_arg9)) shapeCasts_S64_S1x64 := by
  have e : W9 m ρ c (Proc.devRef .tc main_v73) = shapeCast S1x64 (W8 m ρ c (Proc.devRef .tc main_arg9)) shapeCasts_S64_S1x64 := by
    show StableHlo.after hostOps4 (W8 m ρ c) (Proc.devRef .tc main_v73) = _
    after_results_simp
    rfl
  rw [e, w8_arg9]

theorem w9_v47_0 (c : Dev nD) : W9 m ρ c (Proc.devRef .tc main_v47_0) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step9_v47_0 m ρ c).trans ((step8_v47_0 m ρ c).trans (w7_v47_0 m ρ c))
theorem w9_v58_0 (c : Dev nD) : W9 m ρ c (Proc.devRef .tc main_v58_0) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step9_v58_0 m ρ c).trans ((step8_v58_0 m ρ c).trans (w7_v58_0 m ρ c))
theorem w9_v69 (c : Dev nD) : W9 m ρ c (Proc.devRef .tc main_v69) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (step9_v69 m ρ c).trans (w8_v69 m ρ c)

end Cert.KernelIdeal.Boundaries

end
-- ==== Proof.ChebOutBlocks.lean ====
/-
  The Chebyshev projection, from row blocks to the whole array.

  The region walks the 100000 nodes in 20 blocks of 5000 rows. At block t it reads rows 5000 t … 5000 t + 4999 of the
  three Chebyshev terms T0, T1, T2, the three whole 128 x 64 blocks of the weight matrix and the whole bias row, and
  writes the same rows of ((T0 W0 + T1 W1) + T2 W2) + b. Row p of the result depends only on row p of the three terms,
  so every block is the restriction of one whole-array function, and the 20 blocks tile the array.
-/
import proofs.«111396_j42992622633741_2_alg».proof.Proof.Gen.KernelIdeal.Frame
import proofs.«111396_j42992622633741_2_alg».proof.Proof.Layers
import proofs.«111396_j42992622633741_2_alg».proof.Proof.LibColumn
import proofs.«111396_j42992622633741_2_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ChebOutBlocks

open Cert.KernelIdeal Cert.KernelIdeal.Gen Cert.Layers Cert.LibColumn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Each product contracts a term's feature axis with a weight block's rows. -/
theorem rbc : Idealize.ShloMosaic.MatmulRead.RowsByCols dot_S5000x128_S128x64_S5000x64_1_0_0_1_n_n := ⟨rfl, rfl, rfl, rfl, rfl, rfl⟩

/-- The body's stored value at an entry: the three rows against the three weight columns, added up, plus the bias. -/
theorem pay_out (x0 : Vec Ideal S5000x128 .f32) (x3 : Vec Ideal S128x64 .f32) (x1 : Vec Ideal S5000x128 .f32) (x4 : Vec Ideal S128x64 .f32)
    (x2 : Vec Ideal S5000x128 .f32) (x5 : Vec Ideal S128x64 .f32) (x6 : Vec Ideal S1x64 .f32) (r : Fin 5000) (q : Fin 64) :
    k4_pay1 x0 x3 x1 x4 x2 x5 x6 (ix2 r q)
      = (((∑ k : Fin 128, x0 (ix2 r k) * x3 (ix2 k q)) + (∑ k : Fin 128, x1 (ix2 r k) * x4 (ix2 k q))) + (∑ k : Fin 128, x2 (ix2 r k) * x5 (ix2 k q)))
          + x6 (ix2 0 q) := by
  unfold k4_pay1
  simp only [shapeCast_self]
  show ((FloatOps.matmul (F := Ideal) dot_S5000x128_S128x64_S5000x64_1_0_0_1_n_n (some .fp32) x0 x3 (constant (F := Ideal) S5000x64 .f32 0x00000000#32) (ix2 r q)
      + FloatOps.matmul (F := Ideal) dot_S5000x128_S128x64_S5000x64_1_0_0_1_n_n (some .fp32) x1 x4 (constant (F := Ideal) S5000x64 .f32 0x00000000#32) (ix2 r q))
      + FloatOps.matmul (F := Ideal) dot_S5000x128_S128x64_S5000x64_1_0_0_1_n_n (some .fp32) x2 x5 (constant (F := Ideal) S5000x64 .f32 0x00000000#32) (ix2 r q))
      + broadcastTo S5000x64 x6 broadcasts_S1x64_S5000x64 (ix2 r q) = _
  rw [Idealize.ShloMosaic.MatmulRead.matmul_zero_ix2 rbc rfl rfl, Idealize.ShloMosaic.MatmulRead.matmul_zero_ix2 rbc rfl rfl,
    Idealize.ShloMosaic.MatmulRead.matmul_zero_ix2 rbc rfl rfl, broadcastTo_row_apply]

/-- The printed index maps, decided over the grid: a row-blocked window's block at point t starts at row block t, a whole
    window's at the origin; every column block is 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

set_option maxHeartbeats 4000000 in
/-- What point t writes back is block t of the projection, as a function of the arrays the region found. -/
theorem flushed7_eq (c : Dev nD) (t : Fin cfg4.N) :
    (dat4 V c).flushed 7 t = ((cfg4.win 7).blk t).view.read (Elt Ideal) (chebOut (V c main_v47_0) (V c main_v58_0) (V c main_v69) (V c main_v70) (V c main_v71) (V c main_v72) (V c main_v73)) := by
  show (cfg4.win 7).cut (grid4.coords t) ((dat4 V c).after 7 t) = _
  rw [after4_7]
  unfold out4_7
  rw [View.canon_unit_zero hz]
  simp only [View.ld_unit_zero (S := S5000x128) hz, View.ld_unit_zero (S := S128x64) hz, View.ld_unit_zero (S := S1x64) hz, View.ld_unit_zero (S := S5000x64) hz]
  obtain ⟨e00, e01, e10, e11, e20, e21, e30, e31, e40, e41, e50, e51, e60, e61, e70, e71⟩ := idx_facts t
  have ht : t.val < 20 := by have h := t.isLt; have hN : cfg4.N = 20 := N_4; omega
  funext y
  obtain ⟨r, q, rfl⟩ : ∃ (r : Fin 5000) (q : Fin 64), y = ix2 r q := ⟨y 0, y 1, eq_ix2 y⟩
  have hr : r.val < 5000 := r.isLt
  have h0 : ∀ (x : Fin 128), ((cfg4.win 0).blk t).view.emb (ix2 r x) = (ix2 (⟨t.val * 5000 + r.val, by omega⟩ : Fin 100000) x : S100000x128.Idx) := fun x => by
    funext a; apply Fin.ext
    match a with
    | ⟨0, _⟩ => show win4_0.index t (0 : Fin 2) * 5000 + 1 * r.val = t.val * 5000 + r.val; omega
    | ⟨1, _⟩ => show win4_0.index t (1 : Fin 2) * 128 + 1 * x.val = x.val; omega
  have h1 : ∀ (x : Fin 128), ((cfg4.win 1).blk t).view.emb (ix2 r x) = (ix2 (⟨t.val * 5000 + r.val, by omega⟩ : Fin 100000) x : S100000x128.Idx) := fun x => by
    funext a; apply Fin.ext
    match a with
    | ⟨0, _⟩ => show win4_1.index t (0 : Fin 2) * 5000 + 1 * r.val = t.val * 5000 + r.val; omega
    | ⟨1, _⟩ => show win4_1.index t (1 : Fin 2) * 128 + 1 * x.val = x.val; omega
  have h2 : ∀ (x : Fin 128), ((cfg4.win 2).blk t).view.emb (ix2 r x) = (ix2 (⟨t.val * 5000 + r.val, by omega⟩ : Fin 100000) x : S100000x128.Idx) := fun x => by
    funext a; apply Fin.ext
    match a with
    | ⟨0, _⟩ => show win4_2.index t (0 : Fin 2) * 5000 + 1 * r.val = t.val * 5000 + r.val; omega
    | ⟨1, _⟩ => show win4_2.index t (1 : Fin 2) * 128 + 1 * x.val = x.val; omega
  have h3 : ∀ (u : Fin 128) (x : Fin 64), ((cfg4.win 3).blk t).view.emb (ix2 u x) = (ix2 u x : S128x64.Idx) := fun u x => by
    funext a; apply Fin.ext
    match a with
    | ⟨0, _⟩ => show win4_3.index t (0 : Fin 2) * 128 + 1 * u.val = u.val; omega
    | ⟨1, _⟩ => show win4_3.index t (1 : Fin 2) * 64 + 1 * x.val = x.val; omega
  have h4 : ∀ (u : Fin 128) (x : Fin 64), ((cfg4.win 4).blk t).view.emb (ix2 u x) = (ix2 u x : S128x64.Idx) := fun u x => by
    funext a; apply Fin.ext
    match a with
    | ⟨0, _⟩ => show win4_4.index t (0 : Fin 2) * 128 + 1 * u.val = u.val; omega
    | ⟨1, _⟩ => show win4_4.index t (1 : Fin 2) * 64 + 1 * x.val = x.val; omega
  have h5 : ∀ (u : Fin 128) (x : Fin 64), ((cfg4.win 5).blk t).view.emb (ix2 u x) = (ix2 u x : S128x64.Idx) := fun u x => by
    funext a; apply Fin.ext
    match a with
    | ⟨0, _⟩ => show win4_5.index t (0 : Fin 2) * 128 + 1 * u.val = u.val; omega
    | ⟨1, _⟩ => show win4_5.index t (1 : Fin 2) * 64 + 1 * x.val = x.val; omega
  have h6 : ∀ (u : Fin 1) (x : Fin 64), ((cfg4.win 6).blk t).view.emb (ix2 u x) = (ix2 u x : S1x64.Idx) := fun u x => by
    funext a; apply Fin.ext
    match a with
    | ⟨0, _⟩ => show win4_6.index t (0 : Fin 2) * 1 + 1 * u.val = u.val; omega
    | ⟨1, _⟩ => show win4_6.index t (1 : Fin 2) * 64 + 1 * x.val = x.val; omega
  have ho : ((cfg4.win 7).blk t).view.emb (ix2 r q) = (ix2 (⟨t.val * 5000 + r.val, by omega⟩ : Fin 100000) q : S100000x64.Idx) := by
    funext a; apply Fin.ext
    match a with
    | ⟨0, _⟩ => show win4_7.index t (0 : Fin 2) * 5000 + 1 * r.val = t.val * 5000 + r.val; omega
    | ⟨1, _⟩ => show win4_7.index t (1 : Fin 2) * 64 + 1 * q.val = q.val; omega
  refine (pay_out _ _ _ _ _ _ _ r q).trans ?_
  show (((∑ k : Fin 128, (id (V c main_v47_0) : Arr 100000 128) (((cfg4.win 0).blk t).view.emb (ix2 r k)) * (id (V c main_v70) : Arr 128 64) (((cfg4.win 3).blk t).view.emb (ix2 k q))) + (∑ k : Fin 128, (id (V c main_v58_0) : Arr 100000 128) (((cfg4.win 1).blk t).view.emb (ix2 r k)) * (id (V c main_v71) : Arr 128 64) (((cfg4.win 4).blk t).view.emb (ix2 k q)))) + (∑ k : Fin 128, (id (V c main_v69) : Arr 100000 128) (((cfg4.win 2).blk t).view.emb (ix2 r k)) * (id (V c main_v72) : Arr 128 64) (((cfg4.win 5).blk t).view.emb (ix2 k q)))) + (id (V c main_v73) : Arr 1 64) (((cfg4.win 6).blk t).view.emb (ix2 0 q))
    = (chebOut (V c main_v47_0) (V c main_v58_0) (V c main_v69) (V c main_v70) (V c main_v71) (V c main_v72) (V c main_v73)) (((cfg4.win 7).blk t).view.emb (ix2 r q))
  simp only [h0, h1, h2, h3, h4, h5, h6, ho]
  rfl

/-- An index of the array is in point t's block iff each coordinate is in the block's range on its axis. -/
theorem mem_blk7 (t : Fin cfg4.N) (i : S100000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v74).slice (win4_7.rect t)).set ↔ _
  rw [View.set_slice_whole, Rect.mem_set_unit]
  exact Iff.rfl

/-- The 20 row blocks tile the array: row i lies in block i / 5000. -/
theorem cover7 (i : S100000x64.Idx) : ∃ t : Fin cfg4.N, (cfg4.win 7).flush t = true ∧ i ∈ ((cfg4.win 7).blk t).view.set := by
  have hi0 : (i 0).val < 100000 := (i 0).isLt
  have hi1 : (i 1).val < 64 := (i 1).isLt
  have hN : cfg4.N = 20 := N_4
  have hlt : (i 0).val / 5000 < cfg4.N := by rw [hN]; omega
  refine ⟨⟨(i 0).val / 5000, hlt⟩, flush4_7 _, ?_⟩
  rw [mem_blk7]
  obtain ⟨e00, e01, e10, e11, e20, e21, e30, e31, e40, e41, e50, e51, e60, e61, e70, e71⟩ := idx_facts ⟨(i 0).val / 5000, hlt⟩
  intro a
  match a with
  | ⟨0, _⟩ => show win4_7.index _ (0 : Fin 2) * 5000 ≤ (i 0).val ∧ (i 0).val < win4_7.index _ (0 : Fin 2) * 5000 + 5000; rw [e70]; show (i 0).val / 5000 * 5000 ≤ (i 0).val ∧ (i 0).val < (i 0).val / 5000 * 5000 + 5000; omega
  | ⟨1, _⟩ => show win4_7.index _ (1 : Fin 2) * 64 ≤ (i 1).val ∧ (i 1).val < win4_7.index _ (1 : Fin 2) * 64 + 64; rw [e71]; omega

set_option maxHeartbeats 4000000 in
/-- After the region the output array is the projection of the arrays the region found. -/
theorem final7 (c : Dev nD) : (dat4 V c).arrAt 7 cfg4.N = chebOut (V c main_v47_0) (V c main_v58_0) (V c main_v69) (V c main_v70) (V c main_v71) (V c main_v72) (V c main_v73) :=
  (dat4 V c).arrAt_eq_of_cover 7 _ (fun t _ => flushed7_eq V c t) cover7

end Cert.KernelIdeal.ChebOutBlocks

end
-- ==== Proof.Boundary10.lean ====
/-
  The result array after the last region.

  The last region projects the three Chebyshev terms against the three blocks of the weight matrix and adds the bias.
  The reference lays the three terms side by side and takes one product with the whole matrix; the two sums are the
  same terms grouped differently, so the result array is the reference's result.
-/
import proofs.«111396_j42992622633741_2_alg».proof.Proof.Boundary8
import proofs.«111396_j42992622633741_2_alg».proof.Proof.ChebOutBlocks
import proofs.«111396_j42992622633741_2_alg».proof.Proof.RefLayers

set_option maxRecDepth 16384

noncomputable section

namespace Cert.KernelIdeal.Boundaries

open Cert.KernelIdeal Cert.KernelIdeal.Gen Cert.Layers Cert.LibColumn Cert.Bridge
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- After the last region the result array is the reference's result. -/
theorem w10_v74 (c : Dev nD) : W10 m ρ c (Proc.devRef .tc main_v74) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 7).trans ((ChebOutBlocks.final7 (V9 m ρ) c).trans ?_)
  rw [show V9 m ρ c main_v47_0 = _ from w9_v47_0 m ρ c, show V9 m ρ c main_v58_0 = _ from w9_v58_0 m ρ c, show V9 m ρ c main_v69 = _ from w9_v69 m ρ c,
    show V9 m ρ c main_v70 = _ from w9_v70 m ρ c, show V9 m ρ c main_v71 = _ from w9_v71 m ρ c, show V9 m ρ c main_v72 = _ from w9_v72 m ρ c,
    show V9 m ρ c main_v73 = _ from w9_v73 m ρ c]
  exact Cert.RefLayers.out _ _ _ _ _ _ _ _ _ _ _ _ _ _
    (fun k q => slice2_axis0_apply 0 _ _ k q _ (by show k.val = 0 + k.val; omega))
    (fun k q => slice2_axis0_apply 128 _ _ k q _ rfl)
    (fun k q => slice2_axis0_apply 256 _ _ k q _ rfl)
    (fun q => shapeCast_row_apply _ _ q)

end Cert.KernelIdeal.Boundaries

end
-- ==== Proof.lean ====
/-
  A three-layer graph network on 100000 nodes and 1600000 edges — a normalised graph convolution, a mean-aggregating
  layer with a self term, and a Chebyshev layer of order three — computed two ways.

  The kernel program interleaves four aggregations over the edges (gather at the sources, scatter-add at the
  destinations: host operations) with five tiled regions that do the dense work on row blocks of 5000 nodes; the
  reference is one straight line of host operations. On the extended reals the two agree entry by entry, and the proof
  walks the kernel program's ten boundaries showing that each array it holds IS one of the reference's stages:

    * each region's output arrays are whole-array functions of the arrays the region finds (one module per region:
      every block is the restriction of one function, and the blocks tile the arrays);
    * those functions are the reference's stages (RefLayers): the same sums of the same products, up to three regroupings
      that hold on the extended reals without any finiteness — (x + b) + y = (x + y) + b; x / d = x * (1 / d) for
      d = max(deg, 1) ≥ 1, hence nonzero; one product with a 384-row matrix against the sum of three products with its
      128-row blocks — and 0 - x = -x;
    * each aggregation is the same function of its input on both sides (Aggregate), so equal inputs give equal
      aggregates (Boundary1 … Boundary10).

  The frames of the two kernel programs are the generated ones; the reference's frame is its generated run with the
  result dropped; no operation was rewritten by the idealization, so there is nothing to preserve.
-/
import proofs.«111396_j42992622633741_2_alg».proof.Defs
import proofs.«111396_j42992622633741_2_alg».proof.Proof.Gen.Kernel
import proofs.«111396_j42992622633741_2_alg».proof.Proof.Gen.Kernel.Skeleton
import proofs.«111396_j42992622633741_2_alg».proof.Proof.Gen.Kernel.Launch
import proofs.«111396_j42992622633741_2_alg».proof.Proof.Gen.Kernel.Points
import proofs.«111396_j42992622633741_2_alg».proof.Proof.Gen.Kernel.Frame
import proofs.«111396_j42992622633741_2_alg».proof.Proof.Gen.KernelIdeal
import proofs.«111396_j42992622633741_2_alg».proof.Proof.Gen.KernelIdeal.Skeleton
import proofs.«111396_j42992622633741_2_alg».proof.Proof.Gen.KernelIdeal.Launch
import proofs.«111396_j42992622633741_2_alg».proof.Proof.Gen.KernelIdeal.Points
import proofs.«111396_j42992622633741_2_alg».proof.Proof.Gen.KernelIdeal.Frame
import proofs.«111396_j42992622633741_2_alg».proof.Proof.Gen.ReferenceIdeal
import proofs.«111396_j42992622633741_2_alg».proof.Proof.Gen.ReferenceIdeal.Run
import proofs.«111396_j42992622633741_2_alg».proof.Proof.Gen.ReferenceIdeal.Read
import proofs.«111396_j42992622633741_2_alg».proof.Proof.Gen.Pre_finite_inputs
import proofs.«111396_j42992622633741_2_alg».proof.Proof.KernelRun
import proofs.«111396_j42992622633741_2_alg».proof.Proof.Boundary10
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments both programs run, and both result arrays end at the reference's last
    stage of the kernel program's arguments: the kernel program's by the walk through its ten boundaries, the
    reference's by its generated run read stage by stage. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Boundaries.w10_v74 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v95_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
